-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S128x64 .f32) (main_arg16 : FVec F S64 .f32) (main_v63 : IVec S_ 1) (main_v67 : IVec S_ 1) : IVec S_ 1 :=
  let main_v68 : IVec S_ 1 := andi main_v63 main_v67
  let main_v69 : FVec F S128x64 .f32 := Host.absf main_arg15
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg12 : FVec F S128 .f32) (main_arg13 : FVec F S128 .f32) (main_arg14 : FVec F S128 .f32) (main_arg15 : FVec F S128x64 .f32) (main_arg16 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x64 .f32) (main_arg16 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x64 .f32) (main_arg16 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x64 .f32) (main_arg16 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 129
  | .vmem => 30
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x64, .f32⟩
  | 16 => ⟨S64, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S100000, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000, .f32⟩
  | 65 => ⟨S1700000, .f32⟩
  | 66 => ⟨S100000x128, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x128, .f32⟩
  | 76 => ⟨S1700000x1, .f32⟩
  | 77 => ⟨S1700000x128, .f32⟩
  | 78 => ⟨S1700000x128, .f32⟩
  | 79 => ⟨S_, .f32⟩
  | 80 => ⟨S100000x128, .f32⟩
  | 81 => ⟨S1700000x1, .i32⟩
  | 82 => ⟨S100000x128, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S100000x128, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000x128, .f32⟩
  | 98 => ⟨S1700000x1, .f32⟩
  | 99 => ⟨S1700000x128, .f32⟩
  | 100 => ⟨S1700000x128, .f32⟩
  | 101 => ⟨S_, .f32⟩
  | 102 => ⟨S100000x128, .f32⟩
  | 103 => ⟨S1700000x1, .i32⟩
  | 104 => ⟨S100000x128, .f32⟩
  | 105 => ⟨S1x128, .f32⟩
  | 106 => ⟨S1x128, .f32⟩
  | 107 => ⟨S1x128, .f32⟩
  | 108 => ⟨S1x128, .f32⟩
  | 109 => ⟨S1x128, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_6 : Ref sig .tc := ⟨.hbm, 56, rfl⟩
abbrev main_v27 : Ref sig .tc := ⟨.hbm, 57, rfl⟩
abbrev main_v28 : Ref sig .tc := ⟨.hbm, 58, rfl⟩
abbrev main_c_7 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_8 : Ref sig .tc := ⟨.hbm, 67, rfl⟩
abbrev main_v36 : Ref sig .tc := ⟨.hbm, 68, rfl⟩
abbrev main_v37 : Ref sig .tc := ⟨.hbm, 69, rfl⟩
abbrev main_c_9 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_10 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_11 : Ref sig .tc := ⟨.hbm, 89, rfl⟩
abbrev main_v55 : Ref sig .tc := ⟨.hbm, 90, rfl⟩
abbrev main_v56 : Ref sig .tc := ⟨.hbm, 91, rfl⟩
abbrev main_c_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_13 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_14 : Ref sig .tc := ⟨.hbm, 111, rfl⟩
abbrev main_v74 : Ref sig .tc := ⟨.hbm, 112, rfl⟩
abbrev main_v75 : Ref sig .tc := ⟨.hbm, 113, rfl⟩
abbrev main_c_15 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_16 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v73) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v86) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 252
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x64, .f32⟩
  | 16 => ⟨S64, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S100000, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000, .f32⟩
  | 65 => ⟨S1700000, .f32⟩
  | 66 => ⟨S100000x128, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x128, .f32⟩
  | 76 => ⟨S1700000x1, .f32⟩
  | 77 => ⟨S1700000x128, .f32⟩
  | 78 => ⟨S1700000x128, .f32⟩
  | 79 => ⟨S_, .f32⟩
  | 80 => ⟨S100000x128, .f32⟩
  | 81 => ⟨S1700000x1, .i32⟩
  | 82 => ⟨S100000x128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S_, .f32⟩
  | 106 => ⟨S100000, .f32⟩
  | 107 => ⟨S1700000x1, .i32⟩
  | 108 => ⟨S100000, .f32⟩
  | 109 => ⟨S_, .f32⟩
  | 110 => ⟨S100000, .f32⟩
  | 111 => ⟨S100000, .i1⟩
  | 112 => ⟨S_, .f32⟩
  | 113 => ⟨S_, .f32⟩
  | 114 => ⟨S100000, .f32⟩
  | 115 => ⟨S100000, .f32⟩
  | 116 => ⟨S_, .f32⟩
  | 117 => ⟨S100000, .f32⟩
  | 118 => ⟨S100000, .i1⟩
  | 119 => ⟨S100000, .f32⟩
  | 120 => ⟨S_, .f32⟩
  | 121 => ⟨S_, .f32⟩
  | 122 => ⟨S100000, .f32⟩
  | 123 => ⟨S100000, .f32⟩
  | 124 => ⟨S_, .i32⟩
  | 125 => ⟨S1700000, .i32⟩
  | 126 => ⟨S1700000, .i1⟩
  | 127 => ⟨S_, .i32⟩
  | _ => ⟨S100000x128, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000, .f32⟩
  | 5 => ⟨S1700000, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000, .f32⟩
  | 15 => ⟨S1700000, .f32⟩
  | 16 => ⟨S100000x128, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000x128, .f32⟩
  | 26 => ⟨S1700000x1, .f32⟩
  | 27 => ⟨S1700000x128, .f32⟩
  | 28 => ⟨S1700000x128, .f32⟩
  | 29 => ⟨S_, .f32⟩
  | 30 => ⟨S100000x128, .f32⟩
  | 31 => ⟨S1700000x1, .i32⟩
  | 32 => ⟨S100000x128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S128, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .f32⟩
  | 56 => ⟨S100000, .f32⟩
  | 57 => ⟨S1700000x1, .i32⟩
  | 58 => ⟨S100000, .f32⟩
  | 59 => ⟨S_, .f32⟩
  | 60 => ⟨S100000, .f32⟩
  | 61 => ⟨S100000, .i1⟩
  | 62 => ⟨S_, .f32⟩
  | 63 => ⟨S_, .f32⟩
  | 64 => ⟨S100000, .f32⟩
  | 65 => ⟨S100000, .f32⟩
  | 66 => ⟨S_, .f32⟩
  | 67 => ⟨S100000, .f32⟩
  | 68 => ⟨S100000, .i1⟩
  | 69 => ⟨S100000, .f32⟩
  | 70 => ⟨S_, .f32⟩
  | 71 => ⟨S_, .f32⟩
  | 72 => ⟨S100000, .f32⟩
  | 73 => ⟨S100000, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000, .f32⟩
  | 83 => ⟨S1700000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S100000x64, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x64, .f32⟩
  | 104 => ⟨S1700000x1, .f32⟩
  | 105 => ⟨S1700000x64, .f32⟩
  | 106 => ⟨S1700000x64, .f32⟩
  | 107 => ⟨S_, .f32⟩
  | 108 => ⟨S100000x64, .f32⟩
  | 109 => ⟨S1700000x1, .i32⟩
  | 110 => ⟨S100000x64, .f32⟩
  | 111 => ⟨S1x64, .f32⟩
  | 112 => ⟨S100000x64, .f32⟩
  | 113 => ⟨S100000x64, .f32⟩
  | 114 => ⟨S100000x64, .f32⟩
  | 115 => ⟨S_, .f32⟩
  | 116 => ⟨S100000, .f32⟩
  | 117 => ⟨S100000x1, .f32⟩
  | 118 => ⟨S100000x1, .f32⟩
  | 119 => ⟨S_, .f32⟩
  | 120 => ⟨S100000x1, .f32⟩
  | 121 => ⟨S100000x1, .f32⟩
  | 122 => ⟨S100000x64, .f32⟩
  | 123 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_6 : Ref sig .tc := ⟨.hbm, 56, rfl⟩
abbrev main_v27 : Ref sig .tc := ⟨.hbm, 57, rfl⟩
abbrev main_v28 : Ref sig .tc := ⟨.hbm, 58, rfl⟩
abbrev main_c_7 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_8 : Ref sig .tc := ⟨.hbm, 67, rfl⟩
abbrev main_v36 : Ref sig .tc := ⟨.hbm, 68, rfl⟩
abbrev main_v37 : Ref sig .tc := ⟨.hbm, 69, rfl⟩
abbrev main_c_9 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_10 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call2_cst : Ref sig .tc := ⟨.hbm, 102, rfl⟩
abbrev main_call2_v0 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_13 : Ref sig .tc := ⟨.hbm, 109, rfl⟩
abbrev main_v71 : Ref sig .tc := ⟨.hbm, 110, rfl⟩
abbrev main_v72 : Ref sig .tc := ⟨.hbm, 111, rfl⟩
abbrev main_cst_14 : Ref sig .tc := ⟨.hbm, 112, rfl⟩
abbrev main_call3_v0 : Ref sig .tc := ⟨.hbm, 113, rfl⟩
abbrev main_call3_v1 : Ref sig .tc := ⟨.hbm, 114, rfl⟩
abbrev main_v73 : Ref sig .tc := ⟨.hbm, 115, rfl⟩
abbrev main_cst_15 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_16 : Ref sig .tc := ⟨.hbm, 120, rfl⟩
abbrev main_call4_v0 : Ref sig .tc := ⟨.hbm, 121, rfl⟩
abbrev main_call4_v1 : Ref sig .tc := ⟨.hbm, 122, rfl⟩
abbrev main_v77 : Ref sig .tc := ⟨.hbm, 123, rfl⟩
abbrev main_c_17 : Ref sig .tc := ⟨.hbm, 124, rfl⟩
abbrev main_v78 : Ref sig .tc := ⟨.hbm, 125, rfl⟩
abbrev main_v79 : Ref sig .tc := ⟨.hbm, 126, rfl⟩
abbrev main_c_18 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_19 : Ref sig .tc := ⟨.hbm, 134, rfl⟩
abbrev main_v86 : Ref sig .tc := ⟨.hbm, 135, rfl⟩
abbrev main_v87 : Ref sig .tc := ⟨.hbm, 136, rfl⟩
abbrev main_c_20 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_c_21 : Ref sig .tc := ⟨.hbm, 145, rfl⟩
abbrev main_v95 : Ref sig .tc := ⟨.hbm, 146, rfl⟩
abbrev main_v96 : Ref sig .tc := ⟨.hbm, 147, rfl⟩
abbrev main_c_22 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_23 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_cst_24 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_call5_cst : Ref sig .tc := ⟨.hbm, 180, rfl⟩
abbrev main_call5_v0 : Ref sig .tc := ⟨.hbm, 181, rfl⟩
abbrev main_v126 : Ref sig .tc := ⟨.hbm, 182, rfl⟩
abbrev main_cst_25 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_cst_26 : Ref sig .tc := ⟨.hbm, 187, rfl⟩
abbrev main_v130 : Ref sig .tc := ⟨.hbm, 188, rfl⟩
abbrev main_v131 : Ref sig .tc := ⟨.hbm, 189, rfl⟩
abbrev main_cst_27 : Ref sig .tc := ⟨.hbm, 190, rfl⟩
abbrev main_call6_v0 : Ref sig .tc := ⟨.hbm, 191, rfl⟩
abbrev main_call6_v1 : Ref sig .tc := ⟨.hbm, 192, rfl⟩
abbrev main_v132 : Ref sig .tc := ⟨.hbm, 193, rfl⟩
abbrev main_cst_28 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_cst_29 : Ref sig .tc := ⟨.hbm, 198, rfl⟩
abbrev main_call7_v0 : Ref sig .tc := ⟨.hbm, 199, rfl⟩
abbrev main_call7_v1 : Ref sig .tc := ⟨.hbm, 200, rfl⟩
abbrev main_v136 : Ref sig .tc := ⟨.hbm, 201, rfl⟩
abbrev main_c_30 : Ref sig .tc := ⟨.hbm, 202, rfl⟩
abbrev main_v137 : Ref sig .tc := ⟨.hbm, 203, rfl⟩
abbrev main_v138 : Ref sig .tc := ⟨.hbm, 204, rfl⟩
abbrev main_c_31 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_c_32 : Ref sig .tc := ⟨.hbm, 212, rfl⟩
abbrev main_v145 : Ref sig .tc := ⟨.hbm, 213, rfl⟩
abbrev main_v146 : Ref sig .tc := ⟨.hbm, 214, rfl⟩
abbrev main_c_33 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_c_34 : Ref sig .tc := ⟨.hbm, 223, rfl⟩
abbrev main_v154 : Ref sig .tc := ⟨.hbm, 224, rfl⟩
abbrev main_v155 : Ref sig .tc := ⟨.hbm, 225, rfl⟩
abbrev main_c_35 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_cst_36 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_call8_v0 : Ref sig .tc := ⟨.hbm, 242, rfl⟩
abbrev main_call8_cst : Ref sig .tc := ⟨.hbm, 243, rfl⟩
abbrev main_call8_v1 : Ref sig .tc := ⟨.hbm, 244, rfl⟩
abbrev main_call8_v2 : Ref sig .tc := ⟨.hbm, 245, rfl⟩
abbrev main_v170 : Ref sig .tc := ⟨.hbm, 246, rfl⟩
abbrev main_cst_37 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its RESULT named.  The program is four pipelined regions among stretches of host
  operations; every weakly fair execution from a memory with zero counters terminates, and at the end every unscoped
  buffer holds the last boundary's contents: the fold of the host stretches and of the regions' write-backs from the
  launch memory.  The frame claim keeps of this only the arguments; here the result array's final contents are kept too,
  as that fold read at the result buffer, so that a value proof can open it region by region.
-/
import proofs.«120225_j49082886259351_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault, the result array at the last
    boundary's contents read at its buffer, and the seventeen arguments as launched. -/
theorem run_named : θ_run defs (onTc (τ := τ) (main (F := F))) ⟨m, fun _ => 0, ρ⟩ (fun r => ∀ c : Dev nD,
      r.2.mem ((c.tc : Thread nD τ).loc main_v88) = W12 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v88 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.Walk

end
-- ==== Proof.Spec.lean ====
/-
  The arithmetic of one node's row, on the extended reals.  A graph-convolution layer adds a bias to the aggregated
  features, normalizes each feature with running statistics (subtract the mean, multiply by the reciprocal square root of
  the variance plus a small constant, scale, shift) and clips at zero; the last layer divides a row by the larger of its
  Euclidean length and a tiny constant.  These are stated once, over plain extended reals, so that the kernel's blocks and
  the reference's whole arrays can both be read against them, index by index.
-/
import Idealize.ShloMosaic.PureOps.Ideal

noncomputable section

namespace Cert.Gcn

open Idealize.ShloMosaic

/-- One feature of one node after bias, normalization by running statistics, and clipping at zero:
    `max (((a + b) - mean) · (var + ε)^(-1/2) · scale + shift) 0`, the small constant ε and the zero as their binary words. -/
def normClip (a b scale shift mean var : EReal) : EReal :=
  max (((a + b) - mean) * Ideal.rsqrt (var + Ideal.ofBits .f32 0x3727C5AC#32) * scale + shift) (Ideal.ofBits .f32 0x00000000#32)

/-- The divisor of the last layer's row: the larger of the square root of the row's sum of squares and a tiny
    constant (as its binary word). -/
def rowLength (sumsq : EReal) : EReal :=
  max (Ideal.sqrt sumsq) (Ideal.ofBits .f32 0x2B8CBCCC#32)

end Cert.Gcn

end
-- ==== Proof.RefLayers.lean ====
/-
  The reference's three layers as functions of what each layer is handed.  The reference is one straight line of host
  operations; between its sparse aggregations it does, per layer, dense work on whole arrays: add the bias, normalize by
  running statistics, clip at zero, multiply by the next weight (two hidden layers), and at the end add the bias and
  divide each row by its length.  Here that dense work is named as functions of the aggregated features and the layer's
  parameters, and read at a node and a feature against the row arithmetic of the specification.
-/
import proofs.«120225_j49082886259351_1_alg».proof.Proof.Gen.ReferenceIdeal.Read
import proofs.«120225_j49082886259351_1_alg».proof.Proof.Spec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Gen Cert.ReferenceIdeal.Read Idealize.ShloMosaic Idealize.ShloMosaic.ValueIdx

theorem dotA_lhs0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem dotA_rhs1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's product of all node rows with a weight, read at node `P` and column `q`: the node's entries times the weight's
    column, summed over the 128 contracted features. -/
theorem dotA_apply (y : FVec Ideal S100000x128 .f32) (w : FVec Ideal S128x128 .f32) (P : Fin 100000) (q : Fin 128) :
    Host.dotGeneral (F := Ideal) dot_S100000x128_S128x128_S100000x128_1_0_0_1_n_n none y w (ix2 P q) = ∑ k : Fin 128, y (ix2 P k) * w (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 P q) ((ValueIdx.contrEquiv1 dot_S100000x128_S128x128_S100000x128_1_0_0_1_n_n 128 rfl rfl).symm k) = ix2 P k := funext fun a => Fin.ext (by
    match a with
    | ⟨0, _⟩ => exact dotA_lhs0 _ _
    | ⟨1, _⟩ => exact (dot_S100000x128_S128x128_S100000x128_1_0_0_1_n_n.lhsIdx_val_of_single rfl _ _).trans hk)
  have er : dot_S100000x128_S128x128_S100000x128_1_0_0_1_n_n.rhsIdx (ix2 P q) ((ValueIdx.contrEquiv1 dot_S100000x128_S128x128_S100000x128_1_0_0_1_n_n 128 rfl rfl).symm k) = ix2 k q := funext fun a => Fin.ext (by
    match a with
    | ⟨0, _⟩ => exact (dot_S100000x128_S128x128_S100000x128_1_0_0_1_n_n.rhsIdx_val_of_single rfl _ _).trans hk
    | ⟨1, _⟩ => exact dotA_rhs1 _ _)
  rw [el, er]

theorem dotB_lhs0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem dotB_rhs1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The host's product of all node rows with a weight, read at node `P` and column `q`: the node's entries times the weight's
    column, summed over the 128 contracted features. -/
theorem dotB_apply (y : FVec Ideal S100000x128 .f32) (w : FVec Ideal S128x64 .f32) (P : Fin 100000) (q : Fin 64) :
    Host.dotGeneral (F := Ideal) dot_S100000x128_S128x64_S100000x64_1_0_0_1_n_n none y w (ix2 P q) = ∑ k : Fin 128, y (ix2 P k) * w (ix2 k q) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 P q) ((ValueIdx.contrEquiv1 dot_S100000x128_S128x64_S100000x64_1_0_0_1_n_n 128 rfl rfl).symm k) = ix2 P k := funext fun a => Fin.ext (by
    match a with
    | ⟨0, _⟩ => exact dotB_lhs0 _ _
    | ⟨1, _⟩ => exact (dot_S100000x128_S128x64_S100000x64_1_0_0_1_n_n.lhsIdx_val_of_single rfl _ _).trans hk)
  have er : dot_S100000x128_S128x64_S100000x64_1_0_0_1_n_n.rhsIdx (ix2 P q) ((ValueIdx.contrEquiv1 dot_S100000x128_S128x64_S100000x64_1_0_0_1_n_n 128 rfl rfl).symm k) = ix2 k q := funext fun a => Fin.ext (by
    match a with
    | ⟨0, _⟩ => exact (dot_S100000x128_S128x64_S100000x64_1_0_0_1_n_n.rhsIdx_val_of_single rfl _ _).trans hk
    | ⟨1, _⟩ => exact dotB_rhs1 _ _)
  rw [el, er]

/-! ## A per-feature parameter spread over all nodes -/

/-- A vector of 128 per-feature parameters as a row, repeated for every node. -/
def overNodes (x : FVec Ideal S128 .f32) : FVec Ideal S100000x128 .f32 :=
  broadcastInDim S100000x128 ![0, 1] bcast_S1x128_S100000x128_0_1 (broadcastInDim S1x128 ![1] bcast_S128_S1x128_1 x)

theorem overNodes_apply (x : FVec Ideal S128 .f32) (P : Fin 100000) (k : Fin 128) : overNodes x (ix2 P k) = x (ix1 k) := by
  unfold overNodes
  rw [broadcastInDim_apply _ bcast_S1x128_S100000x128_0_1 _ (ix2 P k) (ix2 (0 : Fin 1) k) (fun a => match a with
    | ⟨0, _⟩ => by show 0 = if (1 : Nat) = 1 then 0 else P.val; rw [if_pos rfl]
    | ⟨1, _⟩ => by show k.val = if (128 : Nat) = 1 then 0 else k.val; rw [if_neg (by decide)])]
  exact broadcastInDim_apply _ bcast_S128_S1x128_1 x (ix2 (0 : Fin 1) k) (ix1 k) (fun a => match a with
    | ⟨0, _⟩ => by show k.val = if (128 : Nat) = 1 then 0 else k.val; rw [if_neg (by decide)])

/-- The same for the 64 features of the last layer. -/
def overNodes64 (x : FVec Ideal S64 .f32) : FVec Ideal S100000x64 .f32 :=
  broadcastInDim S100000x64 ![0, 1] bcast_S1x64_S100000x64_0_1 (broadcastInDim S1x64 ![1] bcast_S64_S1x64_1 x)

theorem overNodes64_apply (x : FVec Ideal S64 .f32) (P : Fin 100000) (k : Fin 64) : overNodes64 x (ix2 P k) = x (ix1 k) := by
  unfold overNodes64
  rw [broadcastInDim_apply _ bcast_S1x64_S100000x64_0_1 _ (ix2 P k) (ix2 (0 : Fin 1) k) (fun a => match a with
    | ⟨0, _⟩ => by show 0 = if (1 : Nat) = 1 then 0 else P.val; rw [if_pos rfl]
    | ⟨1, _⟩ => by show k.val = if (64 : Nat) = 1 then 0 else k.val; rw [if_neg (by decide)])]
  exact broadcastInDim_apply _ bcast_S64_S1x64_1 x (ix2 (0 : Fin 1) k) (ix1 k) (fun a => match a with
    | ⟨0, _⟩ => by show k.val = if (64 : Nat) = 1 then 0 else k.val; rw [if_neg (by decide)])

/-! ## A hidden layer's activation -/

/-- Bias, normalization by running statistics and clipping at zero, over the whole array of aggregated features. -/
def activ (agg : FVec Ideal S100000x128 .f32) (b g be rm rv : FVec Ideal S128 .f32) : FVec Ideal S100000x128 .f32 :=
  maximumf (F := Ideal) (addf (mulf (mulf (subf (addf agg (overNodes b)) (overNodes rm))
      (overNodes (Host.rsqrt (F := Ideal) (addf rv (broadcastInDim S128 ![] bcast_S_S128 (constant (F := Ideal) S_ .f32 0x3727C5AC#32))))))
      (overNodes g)) (overNodes be))
    (broadcastInDim S100000x128 ![] bcast_S_S100000x128 (constant (F := Ideal) S_ .f32 0x00000000#32))

/-- At node `P` and feature `k` the activation is the row arithmetic of that one entry and the feature's five parameters. -/
theorem activ_apply (agg : FVec Ideal S100000x128 .f32) (b g be rm rv : FVec Ideal S128 .f32) (P : Fin 100000) (k : Fin 128) :
    activ agg b g be rm rv (ix2 P k)
      = Cert.Gcn.normClip (agg (ix2 P k)) (b (ix1 k)) (g (ix1 k)) (be (ix1 k)) (rm (ix1 k)) (rv (ix1 k)) := by
  unfold activ Cert.Gcn.normClip
  show max (((agg (ix2 P k) + overNodes b (ix2 P k)) - overNodes rm (ix2 P k)) * overNodes _ (ix2 P k) * overNodes g (ix2 P k)
      + overNodes be (ix2 P k)) (broadcastInDim S100000x128 ![] bcast_S_S100000x128 (constant (F := Ideal) S_ .f32 0x00000000#32) (ix2 P k)) = _
  rw [overNodes_apply, overNodes_apply, overNodes_apply, overNodes_apply, overNodes_apply,
    broadcastInDim_apply _ bcast_S_S100000x128 _ (ix2 P k) ix0 (fun a => a.elim0)]
  show max (((agg (ix2 P k) + b (ix1 k)) - rm (ix1 k)) * Ideal.rsqrt (rv (ix1 k) + broadcastInDim S128 ![] bcast_S_S128 (constant (F := Ideal) S_ .f32 0x3727C5AC#32) (ix1 k)) * g (ix1 k)
      + be (ix1 k)) (Ideal.ofBits .f32 0x00000000#32) = _
  rw [broadcastInDim_apply _ bcast_S_S128 _ (ix1 k) ix0 (fun a => a.elim0)]
  rfl

/-- The first hidden layer of the reference, from the first aggregation on. -/
theorem v67_eq (x0 : FVec Ideal S100000x128 .f32) (x1 : (⟨S2x1600000, .i32⟩ : BufTy).Contents (Elt Ideal)) (x2 : FVec Ideal S1600000 .f32) (x3 : FVec Ideal S128x128 .f32) (x4 x5 x6 x7 x8 : FVec Ideal S128 .f32) :
    val_main_v67 (F := Ideal) x0 x1 x2 x3 x4 x5 x6 x7 x8 = activ (val_main_v48 x0 x1 x2 x3) x4 x5 x6 x7 x8 := rfl

/-- The second hidden layer of the reference, from the second aggregation on. -/
theorem v126_eq (x0 : FVec Ideal S100000x128 .f32) (x1 : (⟨S2x1600000, .i32⟩ : BufTy).Contents (Elt Ideal)) (x2 : FVec Ideal S1600000 .f32) (x3 : FVec Ideal S128x128 .f32) (x4 x5 x6 x7 x8 : FVec Ideal S128 .f32) (x9 : FVec Ideal S128x128 .f32) (x10 x11 x12 x13 x14 : FVec Ideal S128 .f32) :
    val_main_v126 (F := Ideal) x0 x1 x2 x3 x4 x5 x6 x7 x8 x9 x10 x11 x12 x13 x14 = activ (val_main_v107 x0 x1 x2 x3 x4 x5 x6 x7 x8 x9) x10 x11 x12 x13 x14 := rfl

/-! ## A hidden layer whole: the activation times the next weight -/

/-- A hidden layer with 128 output features. -/
def hidden (agg : FVec Ideal S100000x128 .f32) (b g be rm rv : FVec Ideal S128 .f32) (W : FVec Ideal S128x128 .f32) : FVec Ideal S100000x128 .f32 :=
  Host.dotGeneral (F := Ideal) dot_S100000x128_S128x128_S100000x128_1_0_0_1_n_n none (activ agg b g be rm rv) W

/-- A hidden layer with 64 output features. -/
def hidden64 (agg : FVec Ideal S100000x128 .f32) (b g be rm rv : FVec Ideal S128 .f32) (W : FVec Ideal S128x64 .f32) : FVec Ideal S100000x64 .f32 :=
  Host.dotGeneral (F := Ideal) dot_S100000x128_S128x64_S100000x64_1_0_0_1_n_n none (activ agg b g be rm rv) W

/-- At node `P` and output feature `q`: the node's 128 activated features against the weight's column. -/
theorem hidden_apply (agg : FVec Ideal S100000x128 .f32) (b g be rm rv : FVec Ideal S128 .f32) (W : FVec Ideal S128x128 .f32) (P : Fin 100000) (q : Fin 128) :
    hidden agg b g be rm rv W (ix2 P q)
      = ∑ k : Fin 128, Cert.Gcn.normClip (agg (ix2 P k)) (b (ix1 k)) (g (ix1 k)) (be (ix1 k)) (rm (ix1 k)) (rv (ix1 k)) * W (ix2 k q) := by
  unfold hidden
  rw [dotA_apply]
  exact Finset.sum_congr rfl fun k _ => by rw [activ_apply]

theorem hidden64_apply (agg : FVec Ideal S100000x128 .f32) (b g be rm rv : FVec Ideal S128 .f32) (W : FVec Ideal S128x64 .f32) (P : Fin 100000) (q : Fin 64) :
    hidden64 agg b g be rm rv W (ix2 P q)
      = ∑ k : Fin 128, Cert.Gcn.normClip (agg (ix2 P k)) (b (ix1 k)) (g (ix1 k)) (be (ix1 k)) (rm (ix1 k)) (rv (ix1 k)) * W (ix2 k q) := by
  unfold hidden64
  rw [dotB_apply]
  exact Finset.sum_congr rfl fun k _ => by rw [activ_apply]

/-- The reference's second dense product, from the first aggregation on. -/
theorem v94_eq (x0 : FVec Ideal S100000x128 .f32) (x1 : (⟨S2x1600000, .i32⟩ : BufTy).Contents (Elt Ideal)) (x2 : FVec Ideal S1600000 .f32) (x3 : FVec Ideal S128x128 .f32) (x4 x5 x6 x7 x8 : FVec Ideal S128 .f32) (x9 : FVec Ideal S128x128 .f32) :
    val_main_v94 (F := Ideal) x0 x1 x2 x3 x4 x5 x6 x7 x8 x9 = hidden (val_main_v48 x0 x1 x2 x3) x4 x5 x6 x7 x8 x9 := rfl

/-- The reference's third dense product, from the second aggregation on. -/
theorem v153_eq (x0 : FVec Ideal S100000x128 .f32) (x1 : (⟨S2x1600000, .i32⟩ : BufTy).Contents (Elt Ideal)) (x2 : FVec Ideal S1600000 .f32) (x3 : FVec Ideal S128x128 .f32) (x4 x5 x6 x7 x8 : FVec Ideal S128 .f32) (x9 : FVec Ideal S128x128 .f32) (x10 x11 x12 x13 x14 : FVec Ideal S128 .f32) (x15 : FVec Ideal S128x64 .f32) :
    val_main_v153 (F := Ideal) x0 x1 x2 x3 x4 x5 x6 x7 x8 x9 x10 x11 x12 x13 x14 x15 = hidden64 (val_main_v107 x0 x1 x2 x3 x4 x5 x6 x7 x8 x9) x10 x11 x12 x13 x14 x15 := rfl

/-! ## A parameter handed to a kernel as a one-row array -/

/-- The one row of a [1, 128] array as a vector of 128. -/
def row (X : FVec Ideal S1x128 .f32) : FVec Ideal S128 .f32 :=
  fun i => X (fun a => match a with | ⟨0, _⟩ => ⟨0, Nat.one_pos⟩ | ⟨1, _⟩ => ⟨(i 0).val, (i 0).isLt⟩)

theorem row_apply (X : FVec Ideal S1x128 .f32) (k : Fin 128) : row X (ix1 k) = X (ix2 (0 : Fin 1) k) :=
  congrArg X (funext fun a => Fin.ext (by match a with | ⟨0, _⟩ => rfl | ⟨1, _⟩ => rfl))

/-- The one row of a [1, 64] array as a vector of 64. -/
def row64 (X : FVec Ideal S1x64 .f32) : FVec Ideal S64 .f32 :=
  fun i => X (fun a => match a with | ⟨0, _⟩ => ⟨0, Nat.one_pos⟩ | ⟨1, _⟩ => ⟨(i 0).val, (i 0).isLt⟩)

theorem row64_apply (X : FVec Ideal S1x64 .f32) (k : Fin 64) : row64 X (ix1 k) = X (ix2 (0 : Fin 1) k) :=
  congrArg X (funext fun a => Fin.ext (by match a with | ⟨0, _⟩ => rfl | ⟨1, _⟩ => rfl))

/-! ## The last layer: bias, then each row divided by its length -/

/-- The host's quotient, square root and reciprocal square root of whole arrays, read at an index, are the ideal values'. -/
theorem hostDivf_at {s : Shape} (a b : FVec Ideal s .f32) (i : s.Idx) : Host.divf (F := Ideal) a b i = Ideal.div (a i) (b i) := rfl
theorem hostSqrt_at {s : Shape} (a : FVec Ideal s .f32) (i : s.Idx) : Host.sqrt (F := Ideal) a i = Ideal.sqrt (a i) := rfl

/-- The bias added and every row divided by the larger of its Euclidean length and a tiny constant. -/
def unitRows (agg : FVec Ideal S100000x64 .f32) (b : FVec Ideal S64 .f32) : FVec Ideal S100000x64 .f32 :=
  Host.divf (F := Ideal) (addf agg (overNodes64 b))
    (broadcastInDim S100000x64 ![0, 1] bcast_S100000x1_S100000x64_0_1
      (maximumf (F := Ideal) (Host.sqrt (broadcastInDim S100000x1 ![0] bcast_S100000_S100000x1_0
          (Host.reduceAdd (mulf (addf agg (overNodes64 b)) (addf agg (overNodes64 b))) (constant (F := Ideal) S_ .f32 0x00000000#32) reducesTo_S100000x64_S100000_d1 h_S_)))
        (broadcastInDim S100000x1 ![] bcast_S_S100000x1 (constant (F := Ideal) S_ .f32 0x2B8CBCCC#32))))

/-- The sum of squares of a row of the host's array (the accumulation starts from the zero word, which is the real zero). -/
theorem sumsq_apply (h : FVec Ideal S100000x64 .f32) (P : Fin 100000) :
    Host.reduceAdd (F := Ideal) (mulf h h) (constant (F := Ideal) S_ .f32 0x00000000#32) reducesTo_S100000x64_S100000_d1 h_S_ (ix1 P)
      = ∑ k : Fin 64, h (ix2 P k) * h (ix2 P k) := by
  simp only [Host.reduceAdd, Ideal.hostReduceAdd_def]
  rw [Ideal.hostReduceAdd_single reducesTo_S100000x64_S100000_d1 (by decide)]
  refine (congrArg (· + _) (Ideal.ofBits_zero_f32)).trans ((zero_add _).trans (Finset.sum_congr rfl fun k _ => ?_))
  have e : (by decide : S100000x64.Reduces [1] S100000).lift (ix1 P) k = ix2 P k :=
    funext fun a => Fin.ext (by match a with | ⟨0, _⟩ => rfl | ⟨1, _⟩ => rfl)
  rw [e]
  rfl

/-- At node `P` and feature `q`: the biased entry divided by the row's length. -/
theorem unitRows_apply (agg : FVec Ideal S100000x64 .f32) (b : FVec Ideal S64 .f32) (P : Fin 100000) (q : Fin 64) :
    unitRows agg b (ix2 P q)
      = Ideal.div (agg (ix2 P q) + b (ix1 q))
          (Cert.Gcn.rowLength (∑ k : Fin 64, (agg (ix2 P k) + b (ix1 k)) * (agg (ix2 P k) + b (ix1 k)))) := by
  unfold unitRows
  rw [hostDivf_at, addf_apply, overNodes64_apply,
    broadcastInDim_apply _ bcast_S100000x1_S100000x64_0_1 _ (ix2 P q) (ix2 P (0 : Fin 1)) (fun a => match a with
      | ⟨0, _⟩ => by show P.val = if (100000 : Nat) = 1 then 0 else P.val; rw [if_neg (by decide)]
      | ⟨1, _⟩ => by show 0 = if (1 : Nat) = 1 then 0 else q.val; rw [if_pos rfl]),
    maximumf_apply, hostSqrt_at,
    broadcastInDim_apply _ bcast_S100000_S100000x1_0 _ (ix2 P (0 : Fin 1)) (ix1 P) (fun a => match a with
      | ⟨0, _⟩ => by show P.val = if (100000 : Nat) = 1 then 0 else P.val; rw [if_neg (by decide)]),
    broadcastInDim_apply _ bcast_S_S100000x1 _ (ix2 P (0 : Fin 1)) ix0 (fun a => a.elim0),
    constant_apply, sumsq_apply]
  unfold Cert.Gcn.rowLength
  refine congrArg (fun s => Ideal.div _ (max (Ideal.sqrt s) _)) (Finset.sum_congr rfl fun k _ => ?_)
  rw [addf_apply, overNodes64_apply]

/-- The reference's result, from the third aggregation on. -/
theorem v174_eq (x0 : FVec Ideal S100000x128 .f32) (x1 : (⟨S2x1600000, .i32⟩ : BufTy).Contents (Elt Ideal)) (x2 : FVec Ideal S1600000 .f32) (x3 : FVec Ideal S128x128 .f32) (x4 x5 x6 x7 x8 : FVec Ideal S128 .f32) (x9 : FVec Ideal S128x128 .f32) (x10 x11 x12 x13 x14 : FVec Ideal S128 .f32) (x15 : FVec Ideal S128x64 .f32) (x16 : FVec Ideal S64 .f32) :
    val_main_v174 (F := Ideal) x0 x1 x2 x3 x4 x5 x6 x7 x8 x9 x10 x11 x12 x13 x14 x15 x16
      = unitRows (val_main_v166 x0 x1 x2 x3 x4 x5 x6 x7 x8 x9 x10 x11 x12 x13 x14 x15) x16 := rfl

end Cert.ReferenceIdeal.Stages

end
-- ==== Proof.Dots.lean ====
/-
  The two matrix products of the kernel bodies read at an index.  Each body multiplies a block of 5000 node rows by a
  weight matrix on the matrix unit, accumulating into zeros; at the ideal values the format changes around the product
  are the identity and the product at (p, q) is the plain sum over the 128 contracted features.
-/
import proofs.«120225_j49082886259351_1_alg».proof.Proof.Gen.KernelIdeal
import Idealize.ShloMosaic.Lib.ValueIdx
import Idealize.ShloMosaic.PureOps.Ideal.Laws

noncomputable section

namespace Cert.KernelIdeal.Walk

open Cert.KernelIdeal Idealize.ShloMosaic Idealize.ShloMosaic.ValueIdx

theorem mm128_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm128_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times the weight, into a zero accumulator, read at row `p` and column `q`: the row's entries times the
    weight's column, summed over the 128 contracted features (no rounding and no order is left at the ideal values). -/
theorem mm128_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact mm128_lhs0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact mm128_rhs1 _ _)
  rw [el, er]

theorem mm64_lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem mm64_rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block of 5000 rows times the weight, into a zero accumulator, read at row `p` and column `q`: the row's entries times the
    weight's column, summed over the 128 contracted features (no rounding and no order is left at the ideal values). -/
theorem mm64_apply (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact mm64_lhs0 _ _
    | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl _ _).trans hk
    | ⟨1, _⟩ => exact mm64_rhs1 _ _)
  rw [el, er]

end Cert.KernelIdeal.Walk

end
-- ==== Proof.Region0.lean ====
/-
  REGION 0: the first dense product.  The grid has 20 points; point t multiplies rows 5000·t … 5000·t + 4999 of the node
  features by the whole first weight matrix and writes the product back to the same rows of the result.  So the result
  array, after the last point, is the product of ALL the rows with the weight: entry (P, q) is the sum over the 128 input
  features k of x[P, k] · W[k, q], which is what the host's product of the two whole arrays is at the ideal values.
-/
import proofs.«120225_j49082886259351_1_alg».proof.Proof.Gen.KernelIdeal.Frame
import proofs.«120225_j49082886259351_1_alg».proof.Proof.RefLayers
import proofs.«120225_j49082886259351_1_alg».proof.Proof.Dots
import Idealize.ShloMosaic.Lib.Pipeline.Value
import Idealize.ShloMosaic.Lib.ValueIdx
import Idealize.ShloMosaic.Lib.ValueLayout

set_option maxRecDepth 16384

noncomputable section

namespace Cert.KernelIdeal.Walk

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The body's stored value at (p, q) of its block: row p of the loaded rows against column q of the loaded weight. -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact mm128_apply _ _ p q

/-- Where the three windows' blocks sit at grid point t: the rows block t of the features and of the result, the whole weight. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the host's product of the whole arrays the region finds. -/
theorem flushed0 (c : Dev nD) (t : Fin cfg0.N) :
    (dat0 V c).flushed 2 t = ((cfg0.win 2).blk t).view.read (Elt Ideal)
      (Cert.ReferenceIdeal.Read.val_main_v35 (F := Ideal) (V c main_arg0) (V c main_arg3)) := by
  show (cfg0.win 2).cut (grid0.coords t) ((dat0 V c).after 2 t) = _
  rw [after0_2]
  unfold out0_2
  rw [View.canon_unit_zero hz0]
  simp only [View.ld_unit_zero (S := S5000x128) hz0, View.ld_unit_zero (S := S128x128) hz0]
  obtain ⟨e0, e1, e2, e3, e4, e5⟩ := idx_facts0 t
  have hN : cfg0.N = 20 := N_0
  have ht : t.val < 20 := hN ▸ t.isLt
  funext j
  obtain ⟨p, q, rfl⟩ : ∃ (p : Fin 5000) (q : Fin 128), j = ix2 p q := ⟨j 0, j 1, eq_ix2 j⟩
  refine (pay0_apply (iblk0 V c 0 t) (iblk0 V c 1 t) p q).trans ?_
  show _ = Cert.ReferenceIdeal.Read.val_main_v35 (F := Ideal) (V c main_arg0) (V c main_arg3) (((cfg0.win 2).blk t).view.emb (ix2 p q))
  have hI : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hI]
  refine (((Cert.ReferenceIdeal.Stages.dotA_apply (V c main_arg0) (V c main_arg3) _ q)).trans ?_).symm
  refine Finset.sum_congr rfl fun k _ => ?_
  refine congrArg₂ (· * ·) ?_ ?_
  · show V c main_arg0 _ = V c main_arg0 (((cfg0.win 0).blk t).view.emb (ix2 p k))
    refine congrArg _ (funext fun a => Fin.ext ?_)
    match a with
    | ⟨0, _⟩ => show t.val * 5000 + p.val = win0_0.index t (0 : Fin 2) * 5000 + 1 * p.val; omega
    | ⟨1, _⟩ => show k.val = win0_0.index t (1 : Fin 2) * 128 + 1 * k.val; omega
  · show V c main_arg3 _ = V c main_arg3 (((cfg0.win 1).blk t).view.emb (ix2 k q))
    refine congrArg _ (funext fun a => Fin.ext ?_)
    match a with
    | ⟨0, _⟩ => show k.val = win0_1.index t (0 : Fin 2) * 128 + 1 * k.val; omega
    | ⟨1, _⟩ => show q.val = win0_1.index t (1 : Fin 2) * 128 + 1 * q.val; omega

/-- An index of the result is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Every row of the result is in the block of the point that owns it: row r in point r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  refine ⟨⟨(i 0).val / 5000, hlt⟩, flush0_2 _, ?_⟩
  rw [mem_blk0]
  obtain ⟨-, -, -, -, e4, e5⟩ := idx_facts0 ⟨(i 0).val / 5000, hlt⟩
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e5]; omega

/-- THE RESULT of region 0: the host's product of the two whole arrays the region finds. -/
theorem arr0 (c : Dev nD) :
    (dat0 V c).arrAt 2 cfg0.N = Cert.ReferenceIdeal.Read.val_main_v35 (F := Ideal) (V c main_arg0) (V c main_arg3) :=
  (dat0 V c).arrAt_eq_of_cover 2 _ (fun t _ => flushed0 V c t) (fun i => cover0 i)

end Cert.KernelIdeal.Walk

end
-- ==== Proof.Region1.lean ====
/-
  REGION 1: the first hidden layer's dense part.  Point t of 20 takes rows 5000·t … 5000·t + 4999 of the aggregated
  features, adds the bias, normalizes each of the 128 features by its running statistics, clips at zero, multiplies by the
  whole second weight matrix and writes the rows back.  After the last point the result array is that hidden layer of ALL
  the rows: entry (P, q) is the sum over k of the activated entry (P, k) times W[k, q].  The five parameters arrive as
  one-row arrays; their one row is the parameter vector.
-/
import proofs.«120225_j49082886259351_1_alg».proof.Proof.Gen.KernelIdeal.Frame
import proofs.«120225_j49082886259351_1_alg».proof.Proof.RefLayers
import proofs.«120225_j49082886259351_1_alg».proof.Proof.Dots
import Idealize.ShloMosaic.Lib.Pipeline.Value
import Idealize.ShloMosaic.Lib.ValueIdx
import Idealize.ShloMosaic.Lib.ValueLayout

set_option maxRecDepth 16384

noncomputable section

namespace Cert.KernelIdeal.Walk

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The body's stored value at (p, q) of its block: the row's 128 entries, each with the bias added, normalized by the
    feature's running statistics and clipped at zero, against column q of the loaded weight. -/
theorem pay1_apply (v0 : Vec Ideal S5000x128 .f32) (v2 v6 v10 v17 v21 : Vec Ideal S1x128 .f32) (v28 : Vec Ideal S128x128 .f32) (p : Fin 5000) (q : Fin 128) :
    k1_pay1 v0 v2 v6 v10 v17 v21 v28 (ix2 p q)
      = ∑ k : Fin 128, Cert.Gcn.normClip (v0 (ix2 p k)) (v2 (ix2 (0 : Fin 1) k)) (v17 (ix2 (0 : Fin 1) k)) (v21 (ix2 (0 : Fin 1) k)) (v6 (ix2 (0 : Fin 1) k)) (v10 (ix2 (0 : Fin 1) k)) * v28 (ix2 k q) := by
  unfold k1_pay1
  try dsimp only
  simp only [shapeCast_self]
  refine (mm128_apply _ _ p q).trans ?_
  refine Finset.sum_congr rfl fun k _ => ?_
  refine congrArg (· * v28 (ix2 k q)) ?_
  rw [truncf_apply, maximumf_apply, addf_apply, mulf_apply, mulf_apply, subf_apply, addf_apply,
    broadcastTo_1b_ab_apply, broadcastTo_1b_ab_apply, broadcastTo_1b_ab_apply, broadcastTo_1b_ab_apply, broadcastTo_1b_ab_apply,
    broadcast_apply]
  rfl

/-- Where the eight windows' blocks sit at grid point t: the rows block t of the aggregated features and of the result, the
    five one-row parameters and the weight whole. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-- What point t writes back is block t of the hidden layer of the whole arrays the region finds. -/
theorem flushed1 (c : Dev nD) (t : Fin cfg1.N) :
    (dat1 V c).flushed 7 t = ((cfg1.win 7).blk t).view.read (Elt Ideal)
      (Cert.ReferenceIdeal.Stages.hidden (V c main_v48) (Cert.ReferenceIdeal.Stages.row (V c main_v49)) (Cert.ReferenceIdeal.Stages.row (V c main_v50)) (Cert.ReferenceIdeal.Stages.row (V c main_v51)) (Cert.ReferenceIdeal.Stages.row (V c main_v52)) (Cert.ReferenceIdeal.Stages.row (V c main_v53)) (V c main_arg9)) := by
  show (cfg1.win 7).cut (grid1.coords t) ((dat1 V c).after 7 t) = _
  rw [after1_7]
  unfold out1_7
  rw [View.canon_unit_zero hz1]
  simp only [View.ld_unit_zero (S := S5000x128) hz1, View.ld_unit_zero (S := S1x128) hz1, View.ld_unit_zero (S := S128x128) hz1]
  obtain ⟨e0, e1, e2, e3, e4, e5, e6, e7, e8, e9, e10, e11, e12, e13, e14, e15⟩ := idx_facts1 t
  have hN : cfg1.N = 20 := N_1
  have ht : t.val < 20 := hN ▸ t.isLt
  funext j
  obtain ⟨p, q, rfl⟩ : ∃ (p : Fin 5000) (q : Fin 128), j = ix2 p q := ⟨j 0, j 1, eq_ix2 j⟩
  refine (pay1_apply (iblk1 V c 0 t) (iblk1 V c 1 t) (iblk1 V c 4 t) (iblk1 V c 5 t) (iblk1 V c 2 t) (iblk1 V c 3 t) (iblk1 V c 6 t) p q).trans ?_
  show _ = (Cert.ReferenceIdeal.Stages.hidden (V c main_v48) (Cert.ReferenceIdeal.Stages.row (V c main_v49)) (Cert.ReferenceIdeal.Stages.row (V c main_v50)) (Cert.ReferenceIdeal.Stages.row (V c main_v51)) (Cert.ReferenceIdeal.Stages.row (V c main_v52)) (Cert.ReferenceIdeal.Stages.row (V c main_v53)) (V c main_arg9)) (((cfg1.win 7).blk t).view.emb (ix2 p q))
  have hI : ((cfg1.win 7).blk t).view.emb (ix2 p q) = ix2 (⟨t.val * 5000 + p.val, by omega⟩ : Fin 100000) q := by
    funext a; apply Fin.ext
    match a with
    | ⟨0, _⟩ => show win1_7.index t (0 : Fin 2) * 5000 + 1 * p.val = t.val * 5000 + p.val; omega
    | ⟨1, _⟩ => show win1_7.index t (1 : Fin 2) * 128 + 1 * q.val = q.val; omega
  rw [hI]
  refine ((Cert.ReferenceIdeal.Stages.hidden_apply _ _ _ _ _ _ _ _ q).trans ?_).symm
  refine Finset.sum_congr rfl fun k _ => ?_
  rw [Cert.ReferenceIdeal.Stages.row_apply, Cert.ReferenceIdeal.Stages.row_apply, Cert.ReferenceIdeal.Stages.row_apply, Cert.ReferenceIdeal.Stages.row_apply, Cert.ReferenceIdeal.Stages.row_apply]
  refine congrArg₂ (· * ·) (congr (congr (congr (congr (congr (congrArg Cert.Gcn.normClip ?_) ?_) ?_) ?_) ?_) ?_) ?_
  · show V c main_v48 _ = V c main_v48 (((cfg1.win 0).blk t).view.emb (ix2 p k))
    refine congrArg _ (funext fun a => Fin.ext ?_)
    match a with
    | ⟨0, _⟩ => show t.val * 5000 + p.val = win1_0.index t (0 : Fin 2) * 5000 + 1 * p.val; omega
    | ⟨1, _⟩ => show k.val = win1_0.index t (1 : Fin 2) * 128 + 1 * k.val; omega
  · show V c main_v49 _ = V c main_v49 (((cfg1.win 1).blk t).view.emb (ix2 (0 : Fin 1) k))
    refine congrArg _ (funext fun a => Fin.ext ?_)
    match a with
    | ⟨0, _⟩ => show 0 = win1_1.index t (0 : Fin 2) * 1 + 1 * 0; omega
    | ⟨1, _⟩ => show k.val = win1_1.index t (1 : Fin 2) * 128 + 1 * k.val; omega
  · show V c main_v50 _ = V c main_v50 (((cfg1.win 2).blk t).view.emb (ix2 (0 : Fin 1) k))
    refine congrArg _ (funext fun a => Fin.ext ?_)
    match a with
    | ⟨0, _⟩ => show 0 = win1_2.index t (0 : Fin 2) * 1 + 1 * 0; omega
    | ⟨1, _⟩ => show k.val = win1_2.index t (1 : Fin 2) * 128 + 1 * k.val; omega
  · show V c main_v51 _ = V c main_v51 (((cfg1.win 3).blk t).view.emb (ix2 (0 : Fin 1) k))
    refine congrArg _ (funext fun a => Fin.ext ?_)
    match a with
    | ⟨0, _⟩ => show 0 = win1_3.index t (0 : Fin 2) * 1 + 1 * 0; omega
    | ⟨1, _⟩ => show k.val = win1_3.index t (1 : Fin 2) * 128 + 1 * k.val; omega
  · show V c main_v52 _ = V c main_v52 (((cfg1.win 4).blk t).view.emb (ix2 (0 : Fin 1) k))
    refine congrArg _ (funext fun a => Fin.ext ?_)
    match a with
    | ⟨0, _⟩ => show 0 = win1_4.index t (0 : Fin 2) * 1 + 1 * 0; omega
    | ⟨1, _⟩ => show k.val = win1_4.index t (1 : Fin 2) * 128 + 1 * k.val; omega
  · show V c main_v53 _ = V c main_v53 (((cfg1.win 5).blk t).view.emb (ix2 (0 : Fin 1) k))
    refine congrArg _ (funext fun a => Fin.ext ?_)
    match a with
    | ⟨0, _⟩ => show 0 = win1_5.index t (0 : Fin 2) * 1 + 1 * 0; omega
    | ⟨1, _⟩ => show k.val = win1_5.index t (1 : Fin 2) * 128 + 1 * k.val; omega
  · show V c main_arg9 _ = V c main_arg9 (((cfg1.win 6).blk t).view.emb (ix2 k q))
    refine congrArg _ (funext fun a => Fin.ext ?_)
    match a with
    | ⟨0, _⟩ => show k.val = win1_6.index t (0 : Fin 2) * 128 + 1 * k.val; omega
    | ⟨1, _⟩ => show q.val = win1_6.index t (1 : Fin 2) * 128 + 1 * q.val; omega

/-- An index of the result is in point t's block iff each coordinate is in the block's range on its axis. -/
theorem mem_blk1 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v54).slice (win1_7.rect t)).set ↔ _
  rw [View.set_slice_whole, Rect.mem_set_unit]
  exact Iff.rfl

/-- Every row of the result is in the block of the point that owns it: row r in point r / 5000. -/
theorem cover1 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  have hlt : (i 0).val / 5000 < cfg1.N := by rw [hN]; omega
  refine ⟨⟨(i 0).val / 5000, hlt⟩, flush1_7 _, ?_⟩
  rw [mem_blk1]
  have e := idx_facts1 ⟨(i 0).val / 5000, hlt⟩
  have e4 := e.2.2.2.2.2.2.2.2.2.2.2.2.2.2.1
  have e5 := e.2.2.2.2.2.2.2.2.2.2.2.2.2.2.2
  intro a
  match a with
  | ⟨0, _⟩ =>
    show win1_7.index ⟨(i 0).val / 5000, hlt⟩ (0 : Fin 2) * 5000 ≤ (i 0).val ∧ (i 0).val < win1_7.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_7.index ⟨(i 0).val / 5000, hlt⟩ (1 : Fin 2) * 128 ≤ (i 1).val ∧ (i 1).val < win1_7.index ⟨(i 0).val / 5000, hlt⟩ (1 : Fin 2) * 128 + 128
    rw [e5]; omega

/-- THE RESULT of region 1: the hidden layer of the whole arrays the region finds. -/
theorem arr1 (c : Dev nD) :
    (dat1 V c).arrAt 7 cfg1.N = Cert.ReferenceIdeal.Stages.hidden (V c main_v48) (Cert.ReferenceIdeal.Stages.row (V c main_v49)) (Cert.ReferenceIdeal.Stages.row (V c main_v50)) (Cert.ReferenceIdeal.Stages.row (V c main_v51)) (Cert.ReferenceIdeal.Stages.row (V c main_v52)) (Cert.ReferenceIdeal.Stages.row (V c main_v53)) (V c main_arg9) :=
  (dat1 V c).arrAt_eq_of_cover 7 _ (fun t _ => flushed1 V c t) (fun i => cover1 i)

end Cert.KernelIdeal.Walk

end
-- ==== Proof.Region2.lean ====
/-
  REGION 2: the second hidden layer's dense part.  Point t of 20 takes rows 5000·t … 5000·t + 4999 of the aggregated
  features, adds the bias, normalizes each of the 128 features by its running statistics, clips at zero, multiplies by the
  whole third weight matrix (128 by 64) and writes the rows back.  After the last point the result array is that hidden
  layer of ALL the rows: entry (P, q) is the sum over k of the activated entry (P, k) times W[k, q].
-/
import proofs.«120225_j49082886259351_1_alg».proof.Proof.Gen.KernelIdeal.Frame
import proofs.«120225_j49082886259351_1_alg».proof.Proof.RefLayers
import proofs.«120225_j49082886259351_1_alg».proof.Proof.Dots
import Idealize.ShloMosaic.Lib.Pipeline.Value
import Idealize.ShloMosaic.Lib.ValueIdx
import Idealize.ShloMosaic.Lib.ValueLayout

set_option maxRecDepth 16384

noncomputable section

namespace Cert.KernelIdeal.Walk

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's stored value at (p, q) of its block: the row's 128 entries, each with the bias added, normalized by the
    feature's running statistics and clipped at zero, against column q of the loaded weight. -/
theorem pay2_apply (v0 : Vec Ideal S5000x128 .f32) (v2 v6 v10 v17 v21 : Vec Ideal S1x128 .f32) (v28 : Vec Ideal S128x64 .f32) (p : Fin 5000) (q : Fin 64) :
    k2_pay1 v0 v2 v6 v10 v17 v21 v28 (ix2 p q)
      = ∑ k : Fin 128, Cert.Gcn.normClip (v0 (ix2 p k)) (v2 (ix2 (0 : Fin 1) k)) (v17 (ix2 (0 : Fin 1) k)) (v21 (ix2 (0 : Fin 1) k)) (v6 (ix2 (0 : Fin 1) k)) (v10 (ix2 (0 : Fin 1) k)) * v28 (ix2 k q) := by
  unfold k2_pay1
  try dsimp only
  simp only [shapeCast_self]
  refine (mm64_apply _ _ p q).trans ?_
  refine Finset.sum_congr rfl fun k _ => ?_
  refine congrArg (· * v28 (ix2 k q)) ?_
  rw [truncf_apply, maximumf_apply, addf_apply, mulf_apply, mulf_apply, subf_apply, addf_apply,
    broadcastTo_1b_ab_apply, broadcastTo_1b_ab_apply, broadcastTo_1b_ab_apply, broadcastTo_1b_ab_apply, broadcastTo_1b_ab_apply,
    broadcast_apply]
  rfl

/-- Where the eight windows' blocks sit at grid point t: the rows block t of the aggregated features and of the result, the
    five one-row parameters and the weight whole. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

/-- What point t writes back is block t of the hidden layer of the whole arrays the region finds. -/
theorem flushed2 (c : Dev nD) (t : Fin cfg2.N) :
    (dat2 V c).flushed 7 t = ((cfg2.win 7).blk t).view.read (Elt Ideal)
      (Cert.ReferenceIdeal.Stages.hidden64 (V c main_v67) (Cert.ReferenceIdeal.Stages.row (V c main_v68)) (Cert.ReferenceIdeal.Stages.row (V c main_v69)) (Cert.ReferenceIdeal.Stages.row (V c main_v70)) (Cert.ReferenceIdeal.Stages.row (V c main_v71)) (Cert.ReferenceIdeal.Stages.row (V c main_v72)) (V c main_arg15)) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S1x128) hz2, View.ld_unit_zero (S := S128x64) hz2]
  obtain ⟨e0, e1, e2, e3, e4, e5, e6, e7, e8, e9, e10, e11, e12, e13, e14, e15⟩ := idx_facts2 t
  have hN : cfg2.N = 20 := N_2
  have ht : t.val < 20 := hN ▸ t.isLt
  funext j
  obtain ⟨p, q, rfl⟩ : ∃ (p : Fin 5000) (q : Fin 64), j = ix2 p q := ⟨j 0, j 1, eq_ix2 j⟩
  refine (pay2_apply (iblk2 V c 0 t) (iblk2 V c 1 t) (iblk2 V c 4 t) (iblk2 V c 5 t) (iblk2 V c 2 t) (iblk2 V c 3 t) (iblk2 V c 6 t) p q).trans ?_
  show _ = (Cert.ReferenceIdeal.Stages.hidden64 (V c main_v67) (Cert.ReferenceIdeal.Stages.row (V c main_v68)) (Cert.ReferenceIdeal.Stages.row (V c main_v69)) (Cert.ReferenceIdeal.Stages.row (V c main_v70)) (Cert.ReferenceIdeal.Stages.row (V c main_v71)) (Cert.ReferenceIdeal.Stages.row (V c main_v72)) (V c main_arg15)) (((cfg2.win 7).blk t).view.emb (ix2 p q))
  have hI : ((cfg2.win 7).blk t).view.emb (ix2 p q) = ix2 (⟨t.val * 5000 + p.val, by omega⟩ : Fin 100000) q := by
    funext a; apply Fin.ext
    match a with
    | ⟨0, _⟩ => show win2_7.index t (0 : Fin 2) * 5000 + 1 * p.val = t.val * 5000 + p.val; omega
    | ⟨1, _⟩ => show win2_7.index t (1 : Fin 2) * 64 + 1 * q.val = q.val; omega
  rw [hI]
  refine ((Cert.ReferenceIdeal.Stages.hidden64_apply _ _ _ _ _ _ _ _ q).trans ?_).symm
  refine Finset.sum_congr rfl fun k _ => ?_
  rw [Cert.ReferenceIdeal.Stages.row_apply, Cert.ReferenceIdeal.Stages.row_apply, Cert.ReferenceIdeal.Stages.row_apply, Cert.ReferenceIdeal.Stages.row_apply, Cert.ReferenceIdeal.Stages.row_apply]
  refine congrArg₂ (· * ·) (congr (congr (congr (congr (congr (congrArg Cert.Gcn.normClip ?_) ?_) ?_) ?_) ?_) ?_) ?_
  · show V c main_v67 _ = V c main_v67 (((cfg2.win 0).blk t).view.emb (ix2 p k))
    refine congrArg _ (funext fun a => Fin.ext ?_)
    match a with
    | ⟨0, _⟩ => show t.val * 5000 + p.val = win2_0.index t (0 : Fin 2) * 5000 + 1 * p.val; omega
    | ⟨1, _⟩ => show k.val = win2_0.index t (1 : Fin 2) * 128 + 1 * k.val; omega
  · show V c main_v68 _ = V c main_v68 (((cfg2.win 1).blk t).view.emb (ix2 (0 : Fin 1) k))
    refine congrArg _ (funext fun a => Fin.ext ?_)
    match a with
    | ⟨0, _⟩ => show 0 = win2_1.index t (0 : Fin 2) * 1 + 1 * 0; omega
    | ⟨1, _⟩ => show k.val = win2_1.index t (1 : Fin 2) * 128 + 1 * k.val; omega
  · show V c main_v69 _ = V c main_v69 (((cfg2.win 2).blk t).view.emb (ix2 (0 : Fin 1) k))
    refine congrArg _ (funext fun a => Fin.ext ?_)
    match a with
    | ⟨0, _⟩ => show 0 = win2_2.index t (0 : Fin 2) * 1 + 1 * 0; omega
    | ⟨1, _⟩ => show k.val = win2_2.index t (1 : Fin 2) * 128 + 1 * k.val; omega
  · show V c main_v70 _ = V c main_v70 (((cfg2.win 3).blk t).view.emb (ix2 (0 : Fin 1) k))
    refine congrArg _ (funext fun a => Fin.ext ?_)
    match a with
    | ⟨0, _⟩ => show 0 = win2_3.index t (0 : Fin 2) * 1 + 1 * 0; omega
    | ⟨1, _⟩ => show k.val = win2_3.index t (1 : Fin 2) * 128 + 1 * k.val; omega
  · show V c main_v71 _ = V c main_v71 (((cfg2.win 4).blk t).view.emb (ix2 (0 : Fin 1) k))
    refine congrArg _ (funext fun a => Fin.ext ?_)
    match a with
    | ⟨0, _⟩ => show 0 = win2_4.index t (0 : Fin 2) * 1 + 1 * 0; omega
    | ⟨1, _⟩ => show k.val = win2_4.index t (1 : Fin 2) * 128 + 1 * k.val; omega
  · show V c main_v72 _ = V c main_v72 (((cfg2.win 5).blk t).view.emb (ix2 (0 : Fin 1) k))
    refine congrArg _ (funext fun a => Fin.ext ?_)
    match a with
    | ⟨0, _⟩ => show 0 = win2_5.index t (0 : Fin 2) * 1 + 1 * 0; omega
    | ⟨1, _⟩ => show k.val = win2_5.index t (1 : Fin 2) * 128 + 1 * k.val; omega
  · show V c main_arg15 _ = V c main_arg15 (((cfg2.win 6).blk t).view.emb (ix2 k q))
    refine congrArg _ (funext fun a => Fin.ext ?_)
    match a with
    | ⟨0, _⟩ => show k.val = win2_6.index t (0 : Fin 2) * 128 + 1 * k.val; omega
    | ⟨1, _⟩ => show q.val = win2_6.index t (1 : Fin 2) * 64 + 1 * q.val; omega

/-- An index of the result is in point t's block iff each coordinate is in the block's range on its axis. -/
theorem mem_blk2 (t : Fin cfg2.N) (i : S100000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v73).slice (win2_7.rect t)).set ↔ _
  rw [View.set_slice_whole, Rect.mem_set_unit]
  exact Iff.rfl

/-- Every row of the result is in the block of the point that owns it: row r in point r / 5000. -/
theorem cover2 (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  have hN : cfg2.N = 20 := N_2
  have hlt : (i 0).val / 5000 < cfg2.N := by rw [hN]; omega
  refine ⟨⟨(i 0).val / 5000, hlt⟩, flush2_7 _, ?_⟩
  rw [mem_blk2]
  have e := idx_facts2 ⟨(i 0).val / 5000, hlt⟩
  have e4 := e.2.2.2.2.2.2.2.2.2.2.2.2.2.2.1
  have e5 := e.2.2.2.2.2.2.2.2.2.2.2.2.2.2.2
  intro a
  match a with
  | ⟨0, _⟩ =>
    show win2_7.index ⟨(i 0).val / 5000, hlt⟩ (0 : Fin 2) * 5000 ≤ (i 0).val ∧ (i 0).val < win2_7.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_7.index ⟨(i 0).val / 5000, hlt⟩ (1 : Fin 2) * 64 ≤ (i 1).val ∧ (i 1).val < win2_7.index ⟨(i 0).val / 5000, hlt⟩ (1 : Fin 2) * 64 + 64
    rw [e5]; omega

/-- THE RESULT of region 2: the hidden layer of the whole arrays the region finds. -/
theorem arr2 (c : Dev nD) :
    (dat2 V c).arrAt 7 cfg2.N = Cert.ReferenceIdeal.Stages.hidden64 (V c main_v67) (Cert.ReferenceIdeal.Stages.row (V c main_v68)) (Cert.ReferenceIdeal.Stages.row (V c main_v69)) (Cert.ReferenceIdeal.Stages.row (V c main_v70)) (Cert.ReferenceIdeal.Stages.row (V c main_v71)) (Cert.ReferenceIdeal.Stages.row (V c main_v72)) (V c main_arg15) :=
  (dat2 V c).arrAt_eq_of_cover 7 _ (fun t _ => flushed2 V c t) (fun i => cover2 i)

end Cert.KernelIdeal.Walk

end
-- ==== Proof.LibKeepdims.lean ====
/-
  Two layout operations read at an index, for sums kept as a column (a per-row quantity of shape [a] carried as [a, 1] and
  then spread over the row): the cast that adds the trailing unit axis, and the broadcast of the column over b columns.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(p, u)`, the operand at `p`, whatever the unit coordinate `u`:
    both indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one entry of row `p`: the unit axis
    reads coordinate 0, the other axis keeps its coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Region3.lean ====
/-
  REGION 3: the last layer's dense part.  Point t of 20 takes rows 5000·t … 5000·t + 4999 of the aggregated features,
  adds the bias, and divides each row by the larger of its Euclidean length and a tiny constant; the length is the
  square root of the sum of the row's 64 squares.  After the last point the result array holds every row so normalized.
-/
import proofs.«120225_j49082886259351_1_alg».proof.Proof.Gen.KernelIdeal.Frame
import proofs.«120225_j49082886259351_1_alg».proof.Proof.RefLayers
import proofs.«120225_j49082886259351_1_alg».proof.Proof.Dots
import proofs.«120225_j49082886259351_1_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.Walk

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- A square root of a vector, read at an index, is the ideal values' square root of the entry. -/
theorem sqrt_at {s : Shape} (a : FVec Ideal s .f32) (i : s.Idx) : sqrt a i = Ideal.sqrt (a i) := rfl

/-- A lane sum of a block at the ideal values, read at row r: the plain sum of the row's 64 entries. -/
theorem rowsum_apply (src : FVec Ideal S5000x64 .f32) (hφ : FKind.Formats .f32) (hacc : (0x00000000#32 : BitVec 32) = 0x00000000#32) (r : Fin 5000) :
    multiReduction .add [1] S5000 src 0x00000000#32 reduces_S5000x64_S5000 hφ hacc (ix1 r) = ∑ k : Fin 64, src (ix2 r k) := by
  refine (Ideal.multiReduction_add_single src 0x00000000#32 reduces_S5000x64_S5000 hφ hacc (ix1 r)).trans ?_
  exact Finset.sum_congr rfl fun k _ => congrArg src (funext fun a => Fin.ext (by match a with | ⟨0, _⟩ => rfl | ⟨1, _⟩ => rfl))

/-- The body's stored value at (p, q) of its block: the biased entry divided by the biased row's length. -/
theorem pay3_apply (v0 : Vec Ideal S5000x64 .f32) (v2 : Vec Ideal S1x64 .f32) (p : Fin 5000) (q : Fin 64) :
    k3_pay1 v0 v2 (ix2 p q)
      = Ideal.div (v0 (ix2 p q) + v2 (ix2 (0 : Fin 1) q))
          (Cert.Gcn.rowLength (∑ k : Fin 64, (v0 (ix2 p k) + v2 (ix2 (0 : Fin 1) k)) * (v0 (ix2 p k) + v2 (ix2 (0 : Fin 1) k)))) := by
  unfold k3_pay1
  try dsimp only
  simp only [shapeCast_self]
  rw [divf_apply, addf_apply, broadcastTo_1b_ab_apply, Cert.Lib.broadcastTo_a1_ab_apply, maximumf_apply, sqrt_at,
    Cert.Lib.shapeCast_a_a1_apply, rowsum_apply, broadcast_apply]
  unfold Cert.Gcn.rowLength
  refine congrArg (fun s => Ideal.div _ (max (Ideal.sqrt s) _)) (Finset.sum_congr rfl fun k _ => ?_)
  rw [mulf_apply, addf_apply, broadcastTo_1b_ab_apply]

/-- Where the three windows' blocks sit at grid point t. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the normalized rows of the whole arrays the region finds. -/
theorem flushed3 (c : Dev nD) (t : Fin cfg3.N) :
    (dat3 V c).flushed 2 t = ((cfg3.win 2).blk t).view.read (Elt Ideal)
      (Cert.ReferenceIdeal.Stages.unitRows (V c main_v86) (Cert.ReferenceIdeal.Stages.row64 (V c main_v87))) := by
  show (cfg3.win 2).cut (grid3.coords t) ((dat3 V c).after 2 t) = _
  rw [after3_2]
  unfold out3_2
  rw [View.canon_unit_zero hz3]
  simp only [View.ld_unit_zero (S := S5000x64) hz3, View.ld_unit_zero (S := S1x64) hz3]
  obtain ⟨e0, e1, e2, e3, e4, e5⟩ := idx_facts3 t
  have hN : cfg3.N = 20 := N_3
  have ht : t.val < 20 := hN ▸ t.isLt
  funext j
  obtain ⟨p, q, rfl⟩ : ∃ (p : Fin 5000) (q : Fin 64), j = ix2 p q := ⟨j 0, j 1, eq_ix2 j⟩
  refine (pay3_apply (iblk3 V c 0 t) (iblk3 V c 1 t) p q).trans ?_
  show _ = (Cert.ReferenceIdeal.Stages.unitRows (V c main_v86) (Cert.ReferenceIdeal.Stages.row64 (V c main_v87))) (((cfg3.win 2).blk t).view.emb (ix2 p q))
  have hI : ((cfg3.win 2).blk t).view.emb (ix2 p q) = ix2 (⟨t.val * 5000 + p.val, by omega⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  rw [hI, Cert.ReferenceIdeal.Stages.unitRows_apply]
  have hA : ∀ k : Fin 64, iblk3 V c 0 t (ix2 p k) = V c main_v86 (ix2 (⟨t.val * 5000 + p.val, by omega⟩ : Fin 100000) k) := fun k => by
    show V c main_v86 (((cfg3.win 0).blk t).view.emb (ix2 p k)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * k.val = k.val; omega
  have hB : ∀ k : Fin 64, iblk3 V c 1 t (ix2 (0 : Fin 1) k) = Cert.ReferenceIdeal.Stages.row64 (V c main_v87) (ix1 k) := fun k => by
    rw [Cert.ReferenceIdeal.Stages.row64_apply]
    show V c main_v87 (((cfg3.win 1).blk t).view.emb (ix2 (0 : Fin 1) k)) = _
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * k.val = k.val; omega
  simp only [hA, hB]

/-- An index of the result is in point t's block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v88).slice (win3_2.rect t)).set ↔ _
  rw [View.set_slice_whole, Rect.mem_set_unit]
  exact Iff.rfl

/-- Every row of the result is in the block of the point that owns it: row r in point r / 5000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  have hlt : (i 0).val / 5000 < cfg3.N := by rw [hN]; omega
  refine ⟨⟨(i 0).val / 5000, hlt⟩, flush3_2 _, ?_⟩
  rw [mem_blk3]
  obtain ⟨-, -, -, -, e4, e5⟩ := idx_facts3 ⟨(i 0).val / 5000, hlt⟩
  intro a
  match a with
  | ⟨0, _⟩ =>
    show win3_2.index ⟨(i 0).val / 5000, hlt⟩ (0 : Fin 2) * 5000 ≤ (i 0).val ∧ (i 0).val < win3_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hlt⟩ (1 : Fin 2) * 64 ≤ (i 1).val ∧ (i 1).val < win3_2.index ⟨(i 0).val / 5000, hlt⟩ (1 : Fin 2) * 64 + 64
    rw [e5]; omega

/-- THE RESULT of region 3: every biased row divided by its length. -/
theorem arr3 (c : Dev nD) :
    (dat3 V c).arrAt 2 cfg3.N = Cert.ReferenceIdeal.Stages.unitRows (V c main_v86) (Cert.ReferenceIdeal.Stages.row64 (V c main_v87)) :=
  (dat3 V c).arrAt_eq_of_cover 2 _ (fun t _ => flushed3 V c t) (fun i => cover3 i)

end Cert.KernelIdeal.Walk

end
-- ==== Proof.HostWalk.lean ====
/-
  The idealized kernel's buffers, boundary by boundary.  Between the launch and the return the program alternates stretches
  of host operations with the four pipelined regions; the contents at each boundary are a fold from the launch memory.
  Here that fold is read at the buffers that matter: the edge lists with their self loops, the symmetric normalization
  of the edges, each region's result, each sparse aggregation, and the parameters handed on as one-row arrays — every one
  as the SAME function of the seventeen argument arrays that the reference computes at the corresponding line, so that
  the result buffer at the last boundary is the reference's result term of the arguments.  The host operations are the
  same on both sides and are never opened: only the regions' results (proved in the region modules) enter as facts.
-/
import proofs.«120225_j49082886259351_1_alg».proof.Proof.Gen.KernelIdeal.Frame
import proofs.«120225_j49082886259351_1_alg».proof.Proof.Gen.ReferenceIdeal.Read
import proofs.«120225_j49082886259351_1_alg».proof.Proof.RefLayers
import proofs.«120225_j49082886259351_1_alg».proof.Proof.Region0
import proofs.«120225_j49082886259351_1_alg».proof.Proof.Region1
import proofs.«120225_j49082886259351_1_alg».proof.Proof.Region2
import proofs.«120225_j49082886259351_1_alg».proof.Proof.Region3
import Idealize.ShloMosaic.Lib.StableHlo.Run
import Idealize.ShloMosaic.Lib.ValueIdx
import Idealize.ShloMosaic.Lib.ValueLayout

set_option maxRecDepth 16384

noncomputable section

namespace Cert.KernelIdeal.Walk

open Cert.KernelIdeal Cert.KernelIdeal.Gen Idealize.ShloMosaic Idealize.ShloMosaic.TcCoe Idealize.SL.Sem Idealize.ShloMosaic.ValueIdx
open Idealize.ShloMosaic.StableHlo
open Cert.ReferenceIdeal.Read Cert.ReferenceIdeal.Stages

variable (m : (ℓ : Loc nD τ sig) → Buf (Elt Ideal) ℓ) (ρ : Dev nD → PrngReg)

/-- Opens the host stretches above the nearest region boundary and reads each operation's result at its own buffer, any
    other buffer passing through. -/
macro "walk_host" : tactic =>
  `(tactic| (dsimp only [W0, W1, W2, W3, W4, W5, W7, W9, W11, hostOps0, hostOps0_1, hostOps0_2, hostOps0_3, hostOps0_4, hostOps1, hostOps2, hostOps3]
             after_results_simp))

/-- Reads the operations' results that sit inside a concatenation's list of pieces, where the one-pass reading does not reach. -/
macro "results_rw" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-! ### A module-local function's values are handed over through typed references; the transport is the identity -/

theorem tb_main_cst_2 (h1 h2 h3) (v : (⟨S_, .f32⟩ : BufTy).Contents (Elt Ideal)) :
    TRef.toBuf (Val := Elt Ideal) (TRef.of (sig := sig) (T := ⟨S_, .f32⟩) main_cst_2 h1 h2 h3) v = v := by
  unfold TRef.toBuf
  exact cast_eq _ _
theorem ob_main_cst_2 (h1 h2 h3) (v : (⟨S_, .f32⟩ : BufTy).Contents (Elt Ideal)) :
    TRef.ofBuf (Val := Elt Ideal) (TRef.of (sig := sig) (T := ⟨S_, .f32⟩) main_cst_2 h1 h2 h3) v = v := by
  unfold TRef.ofBuf
  exact cast_eq _ _

theorem tb_main_call0_v0 (h1 h2 h3) (v : (⟨S_, .f32⟩ : BufTy).Contents (Elt Ideal)) :
    TRef.toBuf (Val := Elt Ideal) (TRef.of (sig := sig) (T := ⟨S_, .f32⟩) main_call0_v0 h1 h2 h3) v = v := by
  unfold TRef.toBuf
  exact cast_eq _ _
theorem ob_main_call0_v0 (h1 h2 h3) (v : (⟨S_, .f32⟩ : BufTy).Contents (Elt Ideal)) :
    TRef.ofBuf (Val := Elt Ideal) (TRef.of (sig := sig) (T := ⟨S_, .f32⟩) main_call0_v0 h1 h2 h3) v = v := by
  unfold TRef.ofBuf
  exact cast_eq _ _

theorem tb_main_call0_v1 (h1 h2 h3) (v : (⟨S100000, .f32⟩ : BufTy).Contents (Elt Ideal)) :
    TRef.toBuf (Val := Elt Ideal) (TRef.of (sig := sig) (T := ⟨S100000, .f32⟩) main_call0_v1 h1 h2 h3) v = v := by
  unfold TRef.toBuf
  exact cast_eq _ _
theorem ob_main_call0_v1 (h1 h2 h3) (v : (⟨S100000, .f32⟩ : BufTy).Contents (Elt Ideal)) :
    TRef.ofBuf (Val := Elt Ideal) (TRef.of (sig := sig) (T := ⟨S100000, .f32⟩) main_call0_v1 h1 h2 h3) v = v := by
  unfold TRef.ofBuf
  exact cast_eq _ _

theorem tb_main_v13 (h1 h2 h3) (v : (⟨S100000, .i1⟩ : BufTy).Contents (Elt Ideal)) :
    TRef.toBuf (Val := Elt Ideal) (TRef.of (sig := sig) (T := ⟨S100000, .i1⟩) main_v13 h1 h2 h3) v = v := by
  unfold TRef.toBuf
  exact cast_eq _ _
theorem ob_main_v13 (h1 h2 h3) (v : (⟨S100000, .i1⟩ : BufTy).Contents (Elt Ideal)) :
    TRef.ofBuf (Val := Elt Ideal) (TRef.of (sig := sig) (T := ⟨S100000, .i1⟩) main_v13 h1 h2 h3) v = v := by
  unfold TRef.ofBuf
  exact cast_eq _ _

theorem tb_main_v11 (h1 h2 h3) (v : (⟨S100000, .f32⟩ : BufTy).Contents (Elt Ideal)) :
    TRef.toBuf (Val := Elt Ideal) (TRef.of (sig := sig) (T := ⟨S100000, .f32⟩) main_v11 h1 h2 h3) v = v := by
  unfold TRef.toBuf
  exact cast_eq _ _
theorem ob_main_v11 (h1 h2 h3) (v : (⟨S100000, .f32⟩ : BufTy).Contents (Elt Ideal)) :
    TRef.ofBuf (Val := Elt Ideal) (TRef.of (sig := sig) (T := ⟨S100000, .f32⟩) main_v11 h1 h2 h3) v = v := by
  unfold TRef.ofBuf
  exact cast_eq _ _

theorem tb_main_v14 (h1 h2 h3) (v : (⟨S100000, .f32⟩ : BufTy).Contents (Elt Ideal)) :
    TRef.toBuf (Val := Elt Ideal) (TRef.of (sig := sig) (T := ⟨S100000, .f32⟩) main_v14 h1 h2 h3) v = v := by
  unfold TRef.toBuf
  exact cast_eq _ _
theorem ob_main_v14 (h1 h2 h3) (v : (⟨S100000, .f32⟩ : BufTy).Contents (Elt Ideal)) :
    TRef.ofBuf (Val := Elt Ideal) (TRef.of (sig := sig) (T := ⟨S100000, .f32⟩) main_v14 h1 h2 h3) v = v := by
  unfold TRef.ofBuf
  exact cast_eq _ _

theorem tb_main_cst_4 (h1 h2 h3) (v : (⟨S_, .f32⟩ : BufTy).Contents (Elt Ideal)) :
    TRef.toBuf (Val := Elt Ideal) (TRef.of (sig := sig) (T := ⟨S_, .f32⟩) main_cst_4 h1 h2 h3) v = v := by
  unfold TRef.toBuf
  exact cast_eq _ _
theorem ob_main_cst_4 (h1 h2 h3) (v : (⟨S_, .f32⟩ : BufTy).Contents (Elt Ideal)) :
    TRef.ofBuf (Val := Elt Ideal) (TRef.of (sig := sig) (T := ⟨S_, .f32⟩) main_cst_4 h1 h2 h3) v = v := by
  unfold TRef.ofBuf
  exact cast_eq _ _

theorem tb_main_call1_v0 (h1 h2 h3) (v : (⟨S_, .f32⟩ : BufTy).Contents (Elt Ideal)) :
    TRef.toBuf (Val := Elt Ideal) (TRef.of (sig := sig) (T := ⟨S_, .f32⟩) main_call1_v0 h1 h2 h3) v = v := by
  unfold TRef.toBuf
  exact cast_eq _ _
theorem ob_main_call1_v0 (h1 h2 h3) (v : (⟨S_, .f32⟩ : BufTy).Contents (Elt Ideal)) :
    TRef.ofBuf (Val := Elt Ideal) (TRef.of (sig := sig) (T := ⟨S_, .f32⟩) main_call1_v0 h1 h2 h3) v = v := by
  unfold TRef.ofBuf
  exact cast_eq _ _

theorem tb_main_call1_v1 (h1 h2 h3) (v : (⟨S100000, .f32⟩ : BufTy).Contents (Elt Ideal)) :
    TRef.toBuf (Val := Elt Ideal) (TRef.of (sig := sig) (T := ⟨S100000, .f32⟩) main_call1_v1 h1 h2 h3) v = v := by
  unfold TRef.toBuf
  exact cast_eq _ _
theorem ob_main_call1_v1 (h1 h2 h3) (v : (⟨S100000, .f32⟩ : BufTy).Contents (Elt Ideal)) :
    TRef.ofBuf (Val := Elt Ideal) (TRef.of (sig := sig) (T := ⟨S100000, .f32⟩) main_call1_v1 h1 h2 h3) v = v := by
  unfold TRef.ofBuf
  exact cast_eq _ _

theorem tb_main_v16 (h1 h2 h3) (v : (⟨S100000, .i1⟩ : BufTy).Contents (Elt Ideal)) :
    TRef.toBuf (Val := Elt Ideal) (TRef.of (sig := sig) (T := ⟨S100000, .i1⟩) main_v16 h1 h2 h3) v = v := by
  unfold TRef.toBuf
  exact cast_eq _ _
theorem ob_main_v16 (h1 h2 h3) (v : (⟨S100000, .i1⟩ : BufTy).Contents (Elt Ideal)) :
    TRef.ofBuf (Val := Elt Ideal) (TRef.of (sig := sig) (T := ⟨S100000, .i1⟩) main_v16 h1 h2 h3) v = v := by
  unfold TRef.ofBuf
  exact cast_eq _ _

theorem tb_main_v17 (h1 h2 h3) (v : (⟨S100000, .f32⟩ : BufTy).Contents (Elt Ideal)) :
    TRef.toBuf (Val := Elt Ideal) (TRef.of (sig := sig) (T := ⟨S100000, .f32⟩) main_v17 h1 h2 h3) v = v := by
  unfold TRef.toBuf
  exact cast_eq _ _
theorem ob_main_v17 (h1 h2 h3) (v : (⟨S100000, .f32⟩ : BufTy).Contents (Elt Ideal)) :
    TRef.ofBuf (Val := Elt Ideal) (TRef.of (sig := sig) (T := ⟨S100000, .f32⟩) main_v17 h1 h2 h3) v = v := by
  unfold TRef.ofBuf
  exact cast_eq _ _

theorem tb_main_v18 (h1 h2 h3) (v : (⟨S100000, .f32⟩ : BufTy).Contents (Elt Ideal)) :
    TRef.toBuf (Val := Elt Ideal) (TRef.of (sig := sig) (T := ⟨S100000, .f32⟩) main_v18 h1 h2 h3) v = v := by
  unfold TRef.toBuf
  exact cast_eq _ _
theorem ob_main_v18 (h1 h2 h3) (v : (⟨S100000, .f32⟩ : BufTy).Contents (Elt Ideal)) :
    TRef.ofBuf (Val := Elt Ideal) (TRef.of (sig := sig) (T := ⟨S100000, .f32⟩) main_v18 h1 h2 h3) v = v := by
  unfold TRef.ofBuf
  exact cast_eq _ _

/-! ### The reference recomputes the edges' normalization for its second and third layers: the same function -/

theorem norm2_eq (x1 : (⟨Cert.ReferenceIdeal.S2x1600000, .i32⟩ : BufTy).Contents (Elt Ideal)) (x2 : FVec Ideal Cert.ReferenceIdeal.S1600000 .f32) :
    val_main_v93 (F := Ideal) x1 x2 = val_main_v34 (F := Ideal) x1 x2 := rfl
theorem norm3_eq (x1 : (⟨Cert.ReferenceIdeal.S2x1600000, .i32⟩ : BufTy).Contents (Elt Ideal)) (x2 : FVec Ideal Cert.ReferenceIdeal.S1600000 .f32) :
    val_main_v152 (F := Ideal) x1 x2 = val_main_v34 (F := Ideal) x1 x2 := rfl

/-! ## At region 0's entry -/

theorem s5_arg0 (c : Dev nD) : W5 m ρ c (Proc.devRef .tc main_arg0) = (m ((c : Thread nD τ).loc main_arg0)) := by
  walk_host
theorem s5_arg1 (c : Dev nD) : W5 m ρ c (Proc.devRef .tc main_arg1) = (m ((c : Thread nD τ).loc main_arg1)) := by
  walk_host
theorem s5_arg2 (c : Dev nD) : W5 m ρ c (Proc.devRef .tc main_arg2) = (m ((c : Thread nD τ).loc main_arg2)) := by
  walk_host
theorem s5_arg3 (c : Dev nD) : W5 m ρ c (Proc.devRef .tc main_arg3) = (m ((c : Thread nD τ).loc main_arg3)) := by
  walk_host
theorem s5_arg4 (c : Dev nD) : W5 m ρ c (Proc.devRef .tc main_arg4) = (m ((c : Thread nD τ).loc main_arg4)) := by
  walk_host
theorem s5_arg5 (c : Dev nD) : W5 m ρ c (Proc.devRef .tc main_arg5) = (m ((c : Thread nD τ).loc main_arg5)) := by
  walk_host
theorem s5_arg6 (c : Dev nD) : W5 m ρ c (Proc.devRef .tc main_arg6) = (m ((c : Thread nD τ).loc main_arg6)) := by
  walk_host
theorem s5_arg7 (c : Dev nD) : W5 m ρ c (Proc.devRef .tc main_arg7) = (m ((c : Thread nD τ).loc main_arg7)) := by
  walk_host
theorem s5_arg8 (c : Dev nD) : W5 m ρ c (Proc.devRef .tc main_arg8) = (m ((c : Thread nD τ).loc main_arg8)) := by
  walk_host
theorem s5_arg9 (c : Dev nD) : W5 m ρ c (Proc.devRef .tc main_arg9) = (m ((c : Thread nD τ).loc main_arg9)) := by
  walk_host
theorem s5_arg10 (c : Dev nD) : W5 m ρ c (Proc.devRef .tc main_arg10) = (m ((c : Thread nD τ).loc main_arg10)) := by
  walk_host
theorem s5_arg11 (c : Dev nD) : W5 m ρ c (Proc.devRef .tc main_arg11) = (m ((c : Thread nD τ).loc main_arg11)) := by
  walk_host
theorem s5_arg12 (c : Dev nD) : W5 m ρ c (Proc.devRef .tc main_arg12) = (m ((c : Thread nD τ).loc main_arg12)) := by
  walk_host
theorem s5_arg13 (c : Dev nD) : W5 m ρ c (Proc.devRef .tc main_arg13) = (m ((c : Thread nD τ).loc main_arg13)) := by
  walk_host
theorem s5_arg14 (c : Dev nD) : W5 m ρ c (Proc.devRef .tc main_arg14) = (m ((c : Thread nD τ).loc main_arg14)) := by
  walk_host
theorem s5_arg15 (c : Dev nD) : W5 m ρ c (Proc.devRef .tc main_arg15) = (m ((c : Thread nD τ).loc main_arg15)) := by
  walk_host
theorem s5_arg16 (c : Dev nD) : W5 m ρ c (Proc.devRef .tc main_arg16) = (m ((c : Thread nD τ).loc main_arg16)) := by
  walk_host
/-- The edges' source nodes with the self loops appended. -/
theorem s5_v3 (c : Dev nD) : W5 m ρ c (Proc.devRef .tc main_v3) = val_main_v3 (F := Ideal) (m ((c : Thread nD τ).loc main_arg1)) := by
  walk_host
  results_rw
  rfl
/-- The edges' target nodes with the self loops appended. -/
theorem s5_v6 (c : Dev nD) : W5 m ρ c (Proc.devRef .tc main_v6) = val_main_v6 (F := Ideal) (m ((c : Thread nD τ).loc main_arg1)) := by
  walk_host
  results_rw
  rfl

/-! ### The edges' normalization, stretch by stretch (the two selects are calls of a module-local function) -/

theorem f1_v11 (c : Dev nD) : W1 m ρ c (Proc.devRef .tc main_v11) = val_main_v11 (F := Ideal) (m ((c : Thread nD τ).loc main_arg1)) (m ((c : Thread nD τ).loc main_arg2)) := by
  walk_host
  results_rw
  rfl
theorem f1_v13 (c : Dev nD) : W1 m ρ c (Proc.devRef .tc main_v13) = val_main_v13 (F := Ideal) (m ((c : Thread nD τ).loc main_arg1)) (m ((c : Thread nD τ).loc main_arg2)) := by
  walk_host
  results_rw
  rfl
theorem f1_cst2 (c : Dev nD) : W1 m ρ c (Proc.devRef .tc main_cst_2) = val_main_cst_2 (F := Ideal) := by
  walk_host
  rfl
theorem k2_v11 (c : Dev nD) : W2 m ρ c (Proc.devRef .tc main_v11) = val_main_v11 (F := Ideal) (m ((c : Thread nD τ).loc main_arg1)) (m ((c : Thread nD τ).loc main_arg2)) := by
  dsimp only [W2, hostOps0_1]
  generalize hV : W1 m ρ c = V
  have h0 : V ((Proc.devRef .tc main_v11)) = val_main_v11 (F := Ideal) (m ((c : Thread nD τ).loc main_arg1)) (m ((c : Thread nD τ).loc main_arg2)) := hV ▸ f1_v11 m ρ c
  clear hV
  after_results_simp
  exact h0
/-- The degree with the isolated nodes' zero replaced by one. -/
theorem g2_v14 (c : Dev nD) : W2 m ρ c (Proc.devRef .tc main_v14) = val_main_v14 (F := Ideal) (m ((c : Thread nD τ).loc main_arg1)) (m ((c : Thread nD τ).loc main_arg2)) := by
  dsimp only [W2, hostOps0_1]
  generalize hV : W1 m ρ c = V
  have h0 : V ((Proc.devRef .tc main_v13)) = val_main_v13 (F := Ideal) (m ((c : Thread nD τ).loc main_arg1)) (m ((c : Thread nD τ).loc main_arg2)) := hV ▸ f1_v13 m ρ c
  have h1 : V ((Proc.devRef .tc main_v11)) = val_main_v11 (F := Ideal) (m ((c : Thread nD τ).loc main_arg1)) (m ((c : Thread nD τ).loc main_arg2)) := hV ▸ f1_v11 m ρ c
  have h2 : V ((Proc.devRef .tc main_cst_2)) = val_main_cst_2 (F := Ideal) := hV ▸ f1_cst2 m ρ c
  clear hV
  after_results_simp
  rw [h0, h1, h2]
  simp only [tb_main_cst_2, ob_main_cst_2, tb_main_call0_v0, ob_main_call0_v0, tb_main_call0_v1, ob_main_call0_v1, tb_main_v13, ob_main_v13, tb_main_v11, ob_main_v11, tb_main_v14, ob_main_v14]
  rfl
theorem g3_v16 (c : Dev nD) : W3 m ρ c (Proc.devRef .tc main_v16) = val_main_v16 (F := Ideal) (m ((c : Thread nD τ).loc main_arg1)) (m ((c : Thread nD τ).loc main_arg2)) := by
  dsimp only [W3, hostOps0_2]
  generalize hV : W2 m ρ c = V
  have h0 : V ((Proc.devRef .tc main_v11)) = val_main_v11 (F := Ideal) (m ((c : Thread nD τ).loc main_arg1)) (m ((c : Thread nD τ).loc main_arg2)) := hV ▸ k2_v11 m ρ c
  clear hV
  after_results_simp
  rw [h0]
  rfl
theorem g3_v17 (c : Dev nD) : W3 m ρ c (Proc.devRef .tc main_v17) = val_main_v17 (F := Ideal) (m ((c : Thread nD τ).loc main_arg1)) (m ((c : Thread nD τ).loc main_arg2)) := by
  dsimp only [W3, hostOps0_2]
  generalize hV : W2 m ρ c = V
  have h0 : V ((Proc.devRef .tc main_v14)) = val_main_v14 (F := Ideal) (m ((c : Thread nD τ).loc main_arg1)) (m ((c : Thread nD τ).loc main_arg2)) := hV ▸ g2_v14 m ρ c
  clear hV
  after_results_simp
  rw [h0]
  rfl
theorem g3_cst4 (c : Dev nD) : W3 m ρ c (Proc.devRef .tc main_cst_4) = val_main_cst_4 (F := Ideal) := by
  dsimp only [W3, hostOps0_2]
  generalize W2 m ρ c = V
  after_results_simp
  rfl
/-- The reciprocal square root of the degree, zero at the isolated nodes. -/
theorem g4_v18 (c : Dev nD) : W4 m ρ c (Proc.devRef .tc main_v18) = val_main_v18 (F := Ideal) (m ((c : Thread nD τ).loc main_arg1)) (m ((c : Thread nD τ).loc main_arg2)) := by
  dsimp only [W4, hostOps0_3]
  generalize hV : W3 m ρ c = V
  have h0 : V ((Proc.devRef .tc main_v16)) = val_main_v16 (F := Ideal) (m ((c : Thread nD τ).loc main_arg1)) (m ((c : Thread nD τ).loc main_arg2)) := hV ▸ g3_v16 m ρ c
  have h1 : V ((Proc.devRef .tc main_v17)) = val_main_v17 (F := Ideal) (m ((c : Thread nD τ).loc main_arg1)) (m ((c : Thread nD τ).loc main_arg2)) := hV ▸ g3_v17 m ρ c
  have h2 : V ((Proc.devRef .tc main_cst_4)) = val_main_cst_4 (F := Ideal) := hV ▸ g3_cst4 m ρ c
  clear hV
  after_results_simp
  rw [h0, h1, h2]
  simp only [tb_main_cst_4, ob_main_cst_4, tb_main_call1_v0, ob_main_call1_v0, tb_main_call1_v1, ob_main_call1_v1, tb_main_v16, ob_main_v16, tb_main_v17, ob_main_v17, tb_main_v18, ob_main_v18]
  rfl
theorem k4_v3 (c : Dev nD) : W4 m ρ c (Proc.devRef .tc main_v3) = val_main_v3 (F := Ideal) (m ((c : Thread nD τ).loc main_arg1)) := by
  walk_host
  results_rw
  rfl
theorem k4_v6 (c : Dev nD) : W4 m ρ c (Proc.devRef .tc main_v6) = val_main_v6 (F := Ideal) (m ((c : Thread nD τ).loc main_arg1)) := by
  walk_host
  results_rw
  rfl
theorem k4_v8 (c : Dev nD) : W4 m ρ c (Proc.devRef .tc main_v8) = val_main_v8 (F := Ideal) (m ((c : Thread nD τ).loc main_arg2)) := by
  walk_host
  results_rw
  rfl
/-- The symmetric normalization of every edge: the weight times the reciprocal square roots of both endpoints' degrees. -/
theorem s5_v34 (c : Dev nD) : W5 m ρ c (Proc.devRef .tc main_v34) = val_main_v34 (F := Ideal) (m ((c : Thread nD τ).loc main_arg1)) (m ((c : Thread nD τ).loc main_arg2)) := by
  dsimp only [W5, hostOps0_4]
  generalize hV : W4 m ρ c = V
  have h0 : V ((Proc.devRef .tc main_v18)) = val_main_v18 (F := Ideal) (m ((c : Thread nD τ).loc main_arg1)) (m ((c : Thread nD τ).loc main_arg2)) := hV ▸ g4_v18 m ρ c
  have h1 : V ((Proc.devRef .tc main_v3)) = val_main_v3 (F := Ideal) (m ((c : Thread nD τ).loc main_arg1)) := hV ▸ k4_v3 m ρ c
  have h2 : V ((Proc.devRef .tc main_v6)) = val_main_v6 (F := Ideal) (m ((c : Thread nD τ).loc main_arg1)) := hV ▸ k4_v6 m ρ c
  have h3 : V ((Proc.devRef .tc main_v8)) = val_main_v8 (F := Ideal) (m ((c : Thread nD τ).loc main_arg2)) := hV ▸ k4_v8 m ρ c
  clear hV
  after_results_simp
  rw [h0, h1, h2, h3]
  rfl

/-! ## At region 0's exit -/

/-- Region 0 leaves the first dense product of the features with the first weight. -/
theorem s6_v35 (c : Dev nD) : W6 m ρ c (Proc.devRef .tc main_v35) = val_main_v35 (F := Ideal) (m ((c : Thread nD τ).loc main_arg0)) (m ((c : Thread nD τ).loc main_arg3)) :=
  (W6_arr m ρ c 2).trans ((arr0 (V5 m ρ) c).trans (congrArg₂ (val_main_v35 (F := Ideal)) (s5_arg0 m ρ c) (s5_arg3 m ρ c)))
theorem s6_arg4 (c : Dev nD) : W6 m ρ c (Proc.devRef .tc main_arg4) = (m ((c : Thread nD τ).loc main_arg4)) := by
  rw [W6_of_ne m ρ c main_arg4 (by decide)]
  exact s5_arg4 m ρ c
theorem s6_arg5 (c : Dev nD) : W6 m ρ c (Proc.devRef .tc main_arg5) = (m ((c : Thread nD τ).loc main_arg5)) := by
  rw [W6_of_ne m ρ c main_arg5 (by decide)]
  exact s5_arg5 m ρ c
theorem s6_arg6 (c : Dev nD) : W6 m ρ c (Proc.devRef .tc main_arg6) = (m ((c : Thread nD τ).loc main_arg6)) := by
  rw [W6_of_ne m ρ c main_arg6 (by decide)]
  exact s5_arg6 m ρ c
theorem s6_arg7 (c : Dev nD) : W6 m ρ c (Proc.devRef .tc main_arg7) = (m ((c : Thread nD τ).loc main_arg7)) := by
  rw [W6_of_ne m ρ c main_arg7 (by decide)]
  exact s5_arg7 m ρ c
theorem s6_arg8 (c : Dev nD) : W6 m ρ c (Proc.devRef .tc main_arg8) = (m ((c : Thread nD τ).loc main_arg8)) := by
  rw [W6_of_ne m ρ c main_arg8 (by decide)]
  exact s5_arg8 m ρ c
theorem s6_v3 (c : Dev nD) : W6 m ρ c (Proc.devRef .tc main_v3) = val_main_v3 (F := Ideal) (m ((c : Thread nD τ).loc main_arg1)) := by
  rw [W6_of_ne m ρ c main_v3 (by decide)]
  exact s5_v3 m ρ c
theorem s6_v6 (c : Dev nD) : W6 m ρ c (Proc.devRef .tc main_v6) = val_main_v6 (F := Ideal) (m ((c : Thread nD τ).loc main_arg1)) := by
  rw [W6_of_ne m ρ c main_v6 (by decide)]
  exact s5_v6 m ρ c
theorem s6_v34 (c : Dev nD) : W6 m ρ c (Proc.devRef .tc main_v34) = val_main_v34 (F := Ideal) (m ((c : Thread nD τ).loc main_arg1)) (m ((c : Thread nD τ).loc main_arg2)) := by
  rw [W6_of_ne m ρ c main_v34 (by decide)]
  exact s5_v34 m ρ c

/-! ## At region 1's entry: the first aggregation and the first layer's parameters as one-row arrays -/

/-- The first sparse aggregation: every edge's normalized message scattered onto its target node. -/
theorem s7_v48 (c : Dev nD) : W7 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) := by
  walk_host
  rw [s6_v35 m ρ c, s6_v3 m ρ c, s6_v6 m ρ c, s6_v34 m ρ c]
  rfl
theorem s7_v49 (c : Dev nD) : row (W7 m ρ c (Proc.devRef .tc main_v49)) = (m ((c : Thread nD τ).loc main_arg4)) := by
  have e : W7 m ρ c (Proc.devRef .tc main_v49) = shapeCast S1x128 (m ((c : Thread nD τ).loc main_arg4)) shapeCasts_S128_S1x128 := by
    walk_host
    rw [s6_arg4 m ρ c]
    rfl
  rw [e]
  funext i
  obtain ⟨k, rfl⟩ : ∃ k : Fin 128, i = ix1 k := ⟨i 0, eq_ix1 i⟩
  rw [row_apply]
  exact shapeCast_a_1a_apply _ _ (0 : Fin 1) k
theorem s7_v50 (c : Dev nD) : row (W7 m ρ c (Proc.devRef .tc main_v50)) = (m ((c : Thread nD τ).loc main_arg5)) := by
  have e : W7 m ρ c (Proc.devRef .tc main_v50) = shapeCast S1x128 (m ((c : Thread nD τ).loc main_arg5)) shapeCasts_S128_S1x128 := by
    walk_host
    rw [s6_arg5 m ρ c]
    rfl
  rw [e]
  funext i
  obtain ⟨k, rfl⟩ : ∃ k : Fin 128, i = ix1 k := ⟨i 0, eq_ix1 i⟩
  rw [row_apply]
  exact shapeCast_a_1a_apply _ _ (0 : Fin 1) k
theorem s7_v51 (c : Dev nD) : row (W7 m ρ c (Proc.devRef .tc main_v51)) = (m ((c : Thread nD τ).loc main_arg6)) := by
  have e : W7 m ρ c (Proc.devRef .tc main_v51) = shapeCast S1x128 (m ((c : Thread nD τ).loc main_arg6)) shapeCasts_S128_S1x128 := by
    walk_host
    rw [s6_arg6 m ρ c]
    rfl
  rw [e]
  funext i
  obtain ⟨k, rfl⟩ : ∃ k : Fin 128, i = ix1 k := ⟨i 0, eq_ix1 i⟩
  rw [row_apply]
  exact shapeCast_a_1a_apply _ _ (0 : Fin 1) k
theorem s7_v52 (c : Dev nD) : row (W7 m ρ c (Proc.devRef .tc main_v52)) = (m ((c : Thread nD τ).loc main_arg7)) := by
  have e : W7 m ρ c (Proc.devRef .tc main_v52) = shapeCast S1x128 (m ((c : Thread nD τ).loc main_arg7)) shapeCasts_S128_S1x128 := by
    walk_host
    rw [s6_arg7 m ρ c]
    rfl
  rw [e]
  funext i
  obtain ⟨k, rfl⟩ : ∃ k : Fin 128, i = ix1 k := ⟨i 0, eq_ix1 i⟩
  rw [row_apply]
  exact shapeCast_a_1a_apply _ _ (0 : Fin 1) k
theorem s7_v53 (c : Dev nD) : row (W7 m ρ c (Proc.devRef .tc main_v53)) = (m ((c : Thread nD τ).loc main_arg8)) := by
  have e : W7 m ρ c (Proc.devRef .tc main_v53) = shapeCast S1x128 (m ((c : Thread nD τ).loc main_arg8)) shapeCasts_S128_S1x128 := by
    walk_host
    rw [s6_arg8 m ρ c]
    rfl
  rw [e]
  funext i
  obtain ⟨k, rfl⟩ : ∃ k : Fin 128, i = ix1 k := ⟨i 0, eq_ix1 i⟩
  rw [row_apply]
  exact shapeCast_a_1a_apply _ _ (0 : Fin 1) k
theorem s7_arg9 (c : Dev nD) : W7 m ρ c (Proc.devRef .tc main_arg9) = (m ((c : Thread nD τ).loc main_arg9)) := by
  walk_host
  rw [W6_of_ne m ρ c main_arg9 (by decide)]
  exact s5_arg9 m ρ c
theorem s7_v3 (c : Dev nD) : W7 m ρ c (Proc.devRef .tc main_v3) = val_main_v3 (F := Ideal) (m ((c : Thread nD τ).loc main_arg1)) := by
  walk_host
  rw [W6_of_ne m ρ c main_v3 (by decide)]
  exact s5_v3 m ρ c
theorem s7_v6 (c : Dev nD) : W7 m ρ c (Proc.devRef .tc main_v6) = val_main_v6 (F := Ideal) (m ((c : Thread nD τ).loc main_arg1)) := by
  walk_host
  rw [W6_of_ne m ρ c main_v6 (by decide)]
  exact s5_v6 m ρ c
theorem s7_v34 (c : Dev nD) : W7 m ρ c (Proc.devRef .tc main_v34) = val_main_v34 (F := Ideal) (m ((c : Thread nD τ).loc main_arg1)) (m ((c : Thread nD τ).loc main_arg2)) := by
  walk_host
  rw [W6_of_ne m ρ c main_v34 (by decide)]
  exact s5_v34 m ρ c

/-! ## At region 1's exit -/

/-- Region 1 leaves the reference's second dense product. -/
theorem s8_v54 (c : Dev nD) : W8 m ρ c (Proc.devRef .tc main_v54) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 7).trans ((arr1 (V7 m ρ) c).trans ?_)
  show hidden (W7 m ρ c (Proc.devRef .tc main_v48)) (row (W7 m ρ c (Proc.devRef .tc main_v49))) (row (W7 m ρ c (Proc.devRef .tc main_v50))) (row (W7 m ρ c (Proc.devRef .tc main_v51))) (row (W7 m ρ c (Proc.devRef .tc main_v52))) (row (W7 m ρ c (Proc.devRef .tc main_v53))) (W7 m ρ c (Proc.devRef .tc main_arg9)) = _
  rw [s7_v48 m ρ c, s7_v49 m ρ c, s7_v50 m ρ c, s7_v51 m ρ c, s7_v52 m ρ c, s7_v53 m ρ c, s7_arg9 m ρ c]
  exact (v94_eq _ _ _ _ _ _ _ _ _ _).symm
theorem s8_arg10 (c : Dev nD) : W8 m ρ c (Proc.devRef .tc main_arg10) = (m ((c : Thread nD τ).loc main_arg10)) := by
  rw [W8_of_ne m ρ c main_arg10 (by decide)]
  walk_host
  rw [W6_of_ne m ρ c main_arg10 (by decide)]
  exact s5_arg10 m ρ c
theorem s8_arg11 (c : Dev nD) : W8 m ρ c (Proc.devRef .tc main_arg11) = (m ((c : Thread nD τ).loc main_arg11)) := by
  rw [W8_of_ne m ρ c main_arg11 (by decide)]
  walk_host
  rw [W6_of_ne m ρ c main_arg11 (by decide)]
  exact s5_arg11 m ρ c
theorem s8_arg12 (c : Dev nD) : W8 m ρ c (Proc.devRef .tc main_arg12) = (m ((c : Thread nD τ).loc main_arg12)) := by
  rw [W8_of_ne m ρ c main_arg12 (by decide)]
  walk_host
  rw [W6_of_ne m ρ c main_arg12 (by decide)]
  exact s5_arg12 m ρ c
theorem s8_arg13 (c : Dev nD) : W8 m ρ c (Proc.devRef .tc main_arg13) = (m ((c : Thread nD τ).loc main_arg13)) := by
  rw [W8_of_ne m ρ c main_arg13 (by decide)]
  walk_host
  rw [W6_of_ne m ρ c main_arg13 (by decide)]
  exact s5_arg13 m ρ c
theorem s8_arg14 (c : Dev nD) : W8 m ρ c (Proc.devRef .tc main_arg14) = (m ((c : Thread nD τ).loc main_arg14)) := by
  rw [W8_of_ne m ρ c main_arg14 (by decide)]
  walk_host
  rw [W6_of_ne m ρ c main_arg14 (by decide)]
  exact s5_arg14 m ρ c
theorem s8_v3 (c : Dev nD) : W8 m ρ c (Proc.devRef .tc main_v3) = val_main_v3 (F := Ideal) (m ((c : Thread nD τ).loc main_arg1)) := by
  rw [W8_of_ne m ρ c main_v3 (by decide)]
  walk_host
  rw [W6_of_ne m ρ c main_v3 (by decide)]
  exact s5_v3 m ρ c
theorem s8_v6 (c : Dev nD) : W8 m ρ c (Proc.devRef .tc main_v6) = val_main_v6 (F := Ideal) (m ((c : Thread nD τ).loc main_arg1)) := by
  rw [W8_of_ne m ρ c main_v6 (by decide)]
  walk_host
  rw [W6_of_ne m ρ c main_v6 (by decide)]
  exact s5_v6 m ρ c
theorem s8_v34 (c : Dev nD) : W8 m ρ c (Proc.devRef .tc main_v34) = val_main_v34 (F := Ideal) (m ((c : Thread nD τ).loc main_arg1)) (m ((c : Thread nD τ).loc main_arg2)) := by
  rw [W8_of_ne m ρ c main_v34 (by decide)]
  walk_host
  rw [W6_of_ne m ρ c main_v34 (by decide)]
  exact s5_v34 m ρ c

/-! ## At region 2's entry -/

/-- The second sparse aggregation (the reference recomputes the edges' normalization here; it is the same term). -/
theorem s9_v67 (c : Dev nD) : W9 m ρ c (Proc.devRef .tc main_v67) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  walk_host
  rw [s8_v54 m ρ c, s8_v3 m ρ c, s8_v6 m ρ c, s8_v34 m ρ c]
  unfold val_main_v107 val_main_v104 val_main_v103 val_main_v102
  rw [norm2_eq]
  rfl
theorem s9_v68 (c : Dev nD) : row (W9 m ρ c (Proc.devRef .tc main_v68)) = (m ((c : Thread nD τ).loc main_arg10)) := by
  have e : W9 m ρ c (Proc.devRef .tc main_v68) = shapeCast S1x128 (m ((c : Thread nD τ).loc main_arg10)) shapeCasts_S128_S1x128 := by
    walk_host
    rw [s8_arg10 m ρ c]
    rfl
  rw [e]
  funext i
  obtain ⟨k, rfl⟩ : ∃ k : Fin 128, i = ix1 k := ⟨i 0, eq_ix1 i⟩
  rw [row_apply]
  exact shapeCast_a_1a_apply _ _ (0 : Fin 1) k
theorem s9_v69 (c : Dev nD) : row (W9 m ρ c (Proc.devRef .tc main_v69)) = (m ((c : Thread nD τ).loc main_arg11)) := by
  have e : W9 m ρ c (Proc.devRef .tc main_v69) = shapeCast S1x128 (m ((c : Thread nD τ).loc main_arg11)) shapeCasts_S128_S1x128 := by
    walk_host
    rw [s8_arg11 m ρ c]
    rfl
  rw [e]
  funext i
  obtain ⟨k, rfl⟩ : ∃ k : Fin 128, i = ix1 k := ⟨i 0, eq_ix1 i⟩
  rw [row_apply]
  exact shapeCast_a_1a_apply _ _ (0 : Fin 1) k
theorem s9_v70 (c : Dev nD) : row (W9 m ρ c (Proc.devRef .tc main_v70)) = (m ((c : Thread nD τ).loc main_arg12)) := by
  have e : W9 m ρ c (Proc.devRef .tc main_v70) = shapeCast S1x128 (m ((c : Thread nD τ).loc main_arg12)) shapeCasts_S128_S1x128 := by
    walk_host
    rw [s8_arg12 m ρ c]
    rfl
  rw [e]
  funext i
  obtain ⟨k, rfl⟩ : ∃ k : Fin 128, i = ix1 k := ⟨i 0, eq_ix1 i⟩
  rw [row_apply]
  exact shapeCast_a_1a_apply _ _ (0 : Fin 1) k
theorem s9_v71 (c : Dev nD) : row (W9 m ρ c (Proc.devRef .tc main_v71)) = (m ((c : Thread nD τ).loc main_arg13)) := by
  have e : W9 m ρ c (Proc.devRef .tc main_v71) = shapeCast S1x128 (m ((c : Thread nD τ).loc main_arg13)) shapeCasts_S128_S1x128 := by
    walk_host
    rw [s8_arg13 m ρ c]
    rfl
  rw [e]
  funext i
  obtain ⟨k, rfl⟩ : ∃ k : Fin 128, i = ix1 k := ⟨i 0, eq_ix1 i⟩
  rw [row_apply]
  exact shapeCast_a_1a_apply _ _ (0 : Fin 1) k
theorem s9_v72 (c : Dev nD) : row (W9 m ρ c (Proc.devRef .tc main_v72)) = (m ((c : Thread nD τ).loc main_arg14)) := by
  have e : W9 m ρ c (Proc.devRef .tc main_v72) = shapeCast S1x128 (m ((c : Thread nD τ).loc main_arg14)) shapeCasts_S128_S1x128 := by
    walk_host
    rw [s8_arg14 m ρ c]
    rfl
  rw [e]
  funext i
  obtain ⟨k, rfl⟩ : ∃ k : Fin 128, i = ix1 k := ⟨i 0, eq_ix1 i⟩
  rw [row_apply]
  exact shapeCast_a_1a_apply _ _ (0 : Fin 1) k
theorem s9_arg15 (c : Dev nD) : W9 m ρ c (Proc.devRef .tc main_arg15) = (m ((c : Thread nD τ).loc main_arg15)) := by
  walk_host
  rw [W8_of_ne m ρ c main_arg15 (by decide)]
  walk_host
  rw [W6_of_ne m ρ c main_arg15 (by decide)]
  exact s5_arg15 m ρ c
theorem s9_v3 (c : Dev nD) : W9 m ρ c (Proc.devRef .tc main_v3) = val_main_v3 (F := Ideal) (m ((c : Thread nD τ).loc main_arg1)) := by
  walk_host
  rw [W8_of_ne m ρ c main_v3 (by decide)]
  walk_host
  rw [W6_of_ne m ρ c main_v3 (by decide)]
  exact s5_v3 m ρ c
theorem s9_v6 (c : Dev nD) : W9 m ρ c (Proc.devRef .tc main_v6) = val_main_v6 (F := Ideal) (m ((c : Thread nD τ).loc main_arg1)) := by
  walk_host
  rw [W8_of_ne m ρ c main_v6 (by decide)]
  walk_host
  rw [W6_of_ne m ρ c main_v6 (by decide)]
  exact s5_v6 m ρ c
theorem s9_v34 (c : Dev nD) : W9 m ρ c (Proc.devRef .tc main_v34) = val_main_v34 (F := Ideal) (m ((c : Thread nD τ).loc main_arg1)) (m ((c : Thread nD τ).loc main_arg2)) := by
  walk_host
  rw [W8_of_ne m ρ c main_v34 (by decide)]
  walk_host
  rw [W6_of_ne m ρ c main_v34 (by decide)]
  exact s5_v34 m ρ c

/-! ## At region 2's exit -/

/-- Region 2 leaves the reference's third dense product. -/
theorem s10_v73 (c : Dev nD) : W10 m ρ c (Proc.devRef .tc main_v73) = val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W10_arr m ρ c 7).trans ((arr2 (V9 m ρ) c).trans ?_)
  show hidden64 (W9 m ρ c (Proc.devRef .tc main_v67)) (row (W9 m ρ c (Proc.devRef .tc main_v68))) (row (W9 m ρ c (Proc.devRef .tc main_v69))) (row (W9 m ρ c (Proc.devRef .tc main_v70))) (row (W9 m ρ c (Proc.devRef .tc main_v71))) (row (W9 m ρ c (Proc.devRef .tc main_v72))) (W9 m ρ c (Proc.devRef .tc main_arg15)) = _
  rw [s9_v67 m ρ c, s9_v68 m ρ c, s9_v69 m ρ c, s9_v70 m ρ c, s9_v71 m ρ c, s9_v72 m ρ c, s9_arg15 m ρ c]
  exact (v153_eq _ _ _ _ _ _ _ _ _ _ _ _ _ _ _ _).symm
theorem s10_arg16 (c : Dev nD) : W10 m ρ c (Proc.devRef .tc main_arg16) = (m ((c : Thread nD τ).loc main_arg16)) := by
  rw [W10_of_ne m ρ c main_arg16 (by decide)]
  walk_host
  rw [W8_of_ne m ρ c main_arg16 (by decide)]
  walk_host
  rw [W6_of_ne m ρ c main_arg16 (by decide)]
  exact s5_arg16 m ρ c
theorem s10_v3 (c : Dev nD) : W10 m ρ c (Proc.devRef .tc main_v3) = val_main_v3 (F := Ideal) (m ((c : Thread nD τ).loc main_arg1)) := by
  rw [W10_of_ne m ρ c main_v3 (by decide)]
  walk_host
  rw [W8_of_ne m ρ c main_v3 (by decide)]
  walk_host
  rw [W6_of_ne m ρ c main_v3 (by decide)]
  exact s5_v3 m ρ c
theorem s10_v6 (c : Dev nD) : W10 m ρ c (Proc.devRef .tc main_v6) = val_main_v6 (F := Ideal) (m ((c : Thread nD τ).loc main_arg1)) := by
  rw [W10_of_ne m ρ c main_v6 (by decide)]
  walk_host
  rw [W8_of_ne m ρ c main_v6 (by decide)]
  walk_host
  rw [W6_of_ne m ρ c main_v6 (by decide)]
  exact s5_v6 m ρ c
theorem s10_v34 (c : Dev nD) : W10 m ρ c (Proc.devRef .tc main_v34) = val_main_v34 (F := Ideal) (m ((c : Thread nD τ).loc main_arg1)) (m ((c : Thread nD τ).loc main_arg2)) := by
  rw [W10_of_ne m ρ c main_v34 (by decide)]
  walk_host
  rw [W8_of_ne m ρ c main_v34 (by decide)]
  walk_host
  rw [W6_of_ne m ρ c main_v34 (by decide)]
  exact s5_v34 m ρ c

/-! ## At region 3's entry -/

/-- The third sparse aggregation. -/
theorem s11_v86 (c : Dev nD) : W11 m ρ c (Proc.devRef .tc main_v86) = val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  walk_host
  rw [s10_v73 m ρ c, s10_v3 m ρ c, s10_v6 m ρ c, s10_v34 m ρ c]
  unfold val_main_v166 val_main_v163 val_main_v162 val_main_v161
  rw [norm3_eq]
  rfl
theorem s11_v87 (c : Dev nD) : row64 (W11 m ρ c (Proc.devRef .tc main_v87)) = (m ((c : Thread nD τ).loc main_arg16)) := by
  have e : W11 m ρ c (Proc.devRef .tc main_v87) = shapeCast S1x64 (m ((c : Thread nD τ).loc main_arg16)) shapeCasts_S64_S1x64 := by
    walk_host
    rw [s10_arg16 m ρ c]
    rfl
  rw [e]
  funext i
  obtain ⟨k, rfl⟩ : ∃ k : Fin 64, i = ix1 k := ⟨i 0, eq_ix1 i⟩
  rw [row64_apply]
  exact shapeCast_a_1a_apply _ _ (0 : Fin 1) k

/-! ## At the return -/

/-- THE RESULT BUFFER at the last boundary is the reference's result term of the seventeen arguments. -/
theorem result_eq (c : Dev nD) : W12 m ρ c (Proc.devRef .tc main_v88) = val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W12_arr m ρ c 2).trans ((arr3 (V11 m ρ) c).trans ?_)
  show unitRows (W11 m ρ c (Proc.devRef .tc main_v86)) (row64 (W11 m ρ c (Proc.devRef .tc main_v87))) = _
  rw [s11_v86 m ρ c, s11_v87 m ρ c]
  exact (v174_eq _ _ _ _ _ _ _ _ _ _ _ _ _ _ _ _ _).symm

end Cert.KernelIdeal.Walk

end
-- ==== Proof.lean ====
/-
  A three-layer graph convolution network on 100000 nodes and 1600000 weighted edges (plus one self loop per node):
  each layer multiplies the node features by a weight matrix, sends every edge's source row, scaled by the edge's
  symmetric normalization, to the edge's target node and sums there; the two hidden layers then add a bias, normalize each
  feature by running statistics and clip at zero, and the last layer adds a bias and divides every row by its Euclidean
  length.  The kernel does the dense work in four pipelined regions over blocks of 5000 rows (the three products, the
  middle two fused with the previous layer's bias, normalization and clipping, and the final row normalization) and leaves
  the sparse gather and scatter to the same host operations the reference uses.

  THE CLAIM'S PROOF.  The three frames: the two kernel programs' frames are the generated ones; the reference has no kernel,
  and its frame is its generated run with the result dropped.  The idealized kernel is the printed program read at the
  ideal values (no rewrite was applied), so there is nothing to preserve.  Equality of results at the ideal values: each
  region's result array is the corresponding dense function of the WHOLE arrays the region is handed — entry (P, q) of a
  product is the sum over the contracted feature of row P times column q, whatever the blocking, and the element-wise and
  per-row arithmetic does not see the blocking at all — and the host operations between the regions are those of the
  reference, line for line (the reference recomputes the edges' normalization for every layer; it is the same function of
  the same arguments).  So both programs end with the same function of the seventeen arguments.  No sum is regrouped:
  every sum in the dense work (a product's contraction over 128 features, a row's 64 squares) lies inside one row, and the
  blocks partition the rows; so no law of the extended reals that fails at the infinities is used, and the precondition
  that the inputs are finite is never opened.
-/
import proofs.«120225_j49082886259351_1_alg».proof.Defs
import proofs.«120225_j49082886259351_1_alg».proof.Proof.Gen.Kernel
import proofs.«120225_j49082886259351_1_alg».proof.Proof.Gen.Kernel.Skeleton
import proofs.«120225_j49082886259351_1_alg».proof.Proof.Gen.Kernel.Launch
import proofs.«120225_j49082886259351_1_alg».proof.Proof.Gen.Kernel.Points
import proofs.«120225_j49082886259351_1_alg».proof.Proof.Gen.Kernel.Frame
import proofs.«120225_j49082886259351_1_alg».proof.Proof.Gen.KernelIdeal
import proofs.«120225_j49082886259351_1_alg».proof.Proof.Gen.KernelIdeal.Skeleton
import proofs.«120225_j49082886259351_1_alg».proof.Proof.Gen.KernelIdeal.Launch
import proofs.«120225_j49082886259351_1_alg».proof.Proof.Gen.KernelIdeal.Points
import proofs.«120225_j49082886259351_1_alg».proof.Proof.Gen.KernelIdeal.Frame
import proofs.«120225_j49082886259351_1_alg».proof.Proof.Gen.ReferenceIdeal
import proofs.«120225_j49082886259351_1_alg».proof.Proof.Gen.ReferenceIdeal.Run
import proofs.«120225_j49082886259351_1_alg».proof.Proof.Gen.ReferenceIdeal.Read
import proofs.«120225_j49082886259351_1_alg».proof.Proof.Gen.Pre_finite_inputs
import proofs.«120225_j49082886259351_1_alg».proof.Proof.KernelRun
import proofs.«120225_j49082886259351_1_alg».proof.Proof.HostWalk
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values both programs end with the reference's result term of the seventeen arguments. -/
theorem algebraic : Cert.algebraic_KernelIdeal_ReferenceIdeal := by
  intro m ρ m' ρ' _ hagree
  refine ⟨fun c => Cert.ReferenceIdeal.Read.val_main_v174 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun _ h c => ⟨(h c).1.trans (Cert.KernelIdeal.Walk.result_eq m ρ c), (h c).2⟩)
      (Cert.KernelIdeal.Walk.run_named m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v174_eq]
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
